-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1280000 : Shape := ⟨2, ![2, 1280000]⟩
abbrev S128x64 : Shape := ⟨2, ![128, 64]⟩
abbrev S64 : Shape := ⟨1, ![64]⟩
abbrev S64x32 : Shape := ⟨2, ![64, 32]⟩
abbrev S32 : Shape := ⟨1, ![32]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_arg5 : FVec F S32 .f32) (main_v13 : IVec S_ 1) (main_v16 : IVec S64x32 1) : IVec S_ 1 :=
  let main_c_5 : IVec S_ 1 := constantI S_ 1 1#1
  let main_v17 : IVec S_ 1 := (fun x v => Host.reduce IntOp.andi x v reducesTo_S64x32_S_d0_1 h_S_) main_v16 main_c_5
  let main_v18 : IVec S_ 1 := andi main_v13 main_v17
  let main_v19 : FVec F S32 .f32 := Host.absf main_arg5
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  main_v23

def fn {F : FTy → Type} [FloatOps F] (main_arg0 : FVec F S100000x128 .f32) (main_arg1 : IVec S2x1280000 32) (main_arg2 : FVec F S128x64 .f32) (main_arg3 : FVec F S64 .f32) (main_arg4 : FVec F S64x32 .f32) (main_arg5 : FVec F S32 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x32 .f32 := Host.absf main_arg4
  let main_cst_4 : FVec F S_ .f32 := constant S_ .f32 0x7F800000#32
  let main_v15 : FVec F S64x32 .f32 := broadcastInDim S64x32 ![] bcast_S_S64x32 main_cst_4
  let main_v16 : IVec S64x32 1 := cmpf .olt main_v14 main_v15
  fn_part1 (F := F) main_arg5 main_v13 main_v16
-- ==== Kernel.lean ====
abbrev S100000x128 : Shape := ⟨2, ![100000, 128]⟩
abbrev S2x1280000 : Shape := ⟨2, ![2, 1280000]⟩
abbrev S128x64 : Shape := ⟨2, ![128, 64]⟩
abbrev S64 : Shape := ⟨1, ![64]⟩
abbrev S64x32 : Shape := ⟨2, ![64, 32]⟩
abbrev S32 : Shape := ⟨1, ![32]⟩
abbrev S100000 : Shape := ⟨1, ![100000]⟩
abbrev S1x1280000 : Shape := ⟨2, ![1, 1280000]⟩
abbrev S1280000 : Shape := ⟨1, ![1280000]⟩
abbrev S1380000 : Shape := ⟨1, ![1380000]⟩
abbrev S_ : Shape := ⟨0, ![]⟩
abbrev S1380000x1 : Shape := ⟨2, ![1380000, 1]⟩
abbrev S100000x64 : Shape := ⟨2, ![100000, 64]⟩
abbrev S10000x128 : Shape := ⟨2, ![10000, 128]⟩
abbrev S10000x64 : Shape := ⟨2, ![10000, 64]⟩
abbrev S1380000x64 : Shape := ⟨2, ![1380000, 64]⟩
abbrev S1x64 : Shape := ⟨2, ![1, 64]⟩
abbrev S100000x32 : Shape := ⟨2, ![100000, 32]⟩
abbrev S10000x32 : Shape := ⟨2, ![10000, 32]⟩
abbrev S1380000x32 : Shape := ⟨2, ![1380000, 32]⟩
abbrev S1x32 : Shape := ⟨2, ![1, 32]⟩

abbrev nBuf : Space → Nat
  | .hbm => 84
  | .vmem => 20
  | .smem => 0
  | _ => 0

abbrev bufTy : (tb : Table) → Fin (tcTables nBuf tb) → BufTy
  | .hbm, ⟨0, _⟩ => ⟨S100000x128, .f32⟩
  | .hbm, ⟨1, _⟩ => ⟨S2x1280000, .i32⟩
  | .hbm, ⟨2, _⟩ => ⟨S128x64, .f32⟩
  | .hbm, ⟨3, _⟩ => ⟨S64, .f32⟩
  | .hbm, ⟨4, _⟩ => ⟨S64x32, .f32⟩
  | .hbm, ⟨5, _⟩ => ⟨S32, .f32⟩
  | .hbm, ⟨6, _⟩ => ⟨S100000, .i32⟩
  | .hbm, ⟨7, _⟩ => ⟨S1x1280000, .i32⟩
  | .hbm, ⟨8, _⟩ => ⟨S1280000, .i32⟩
  | .hbm, ⟨9, _⟩ => ⟨S1380000, .i32⟩
  | .hbm, ⟨10, _⟩ => ⟨S1x1280000, .i32⟩
  | .hbm, ⟨11, _⟩ => ⟨S1280000, .i32⟩
  | .hbm, ⟨12, _⟩ => ⟨S1380000, .i32⟩
  | .hbm, ⟨13, _⟩ => ⟨S_, .f32⟩
  | .hbm, ⟨14, _⟩ => ⟨S1380000, .f32⟩
  | .hbm, ⟨15, _⟩ => ⟨S_, .f32⟩
  | .hbm, ⟨16, _⟩ => ⟨S100000, .f32⟩
  | .hbm, ⟨17, _⟩ => ⟨S1380000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1380000, .i32⟩
  | .hbm, ⟨29, _⟩ => ⟨S1380000, .i1⟩
  | .hbm, ⟨30, _⟩ => ⟨S_, .i32⟩
  | .hbm, ⟨31, _⟩ => ⟨S1380000, .i32⟩
  | .hbm, ⟨32, _⟩ => ⟨S1380000, .i32⟩
  | .hbm, ⟨33, _⟩ => ⟨S1380000, .i32⟩
  | .hbm, ⟨34, _⟩ => ⟨S1380000x1, .i32⟩
  | .hbm, ⟨35, _⟩ => ⟨S1380000, .f32⟩
  | .hbm, ⟨36, _⟩ => ⟨S_, .i32⟩
  | .hbm, ⟨37, _⟩ => ⟨S1380000, .i32⟩
  | .hbm, ⟨38, _⟩ => ⟨S1380000, .i1⟩
  | .hbm, ⟨39, _⟩ => ⟨S_, .i32⟩
  | .hbm, ⟨40, _⟩ => ⟨S1380000, .i32⟩
  | .hbm, ⟨41, _⟩ => ⟨S1380000, .i32⟩
  | .hbm, ⟨42, _⟩ => ⟨S1380000, .i32⟩
  | .hbm, ⟨43, _⟩ => ⟨S1380000x1, .i32⟩
  | .hbm, ⟨44, _⟩ => ⟨S1380000, .f32⟩
  | .hbm, ⟨45, _⟩ => ⟨S1380000, .f32⟩
  | .hbm, ⟨46, _⟩ => ⟨S100000x64, .f32⟩
  | .hbm, ⟨47, _⟩ => ⟨S_, .i32⟩
  | .hbm, ⟨48, _⟩ => ⟨S1380000, .i32⟩
  | .hbm, ⟨49, _⟩ => ⟨S1380000, .i1⟩
  | .hbm, ⟨50, _⟩ => ⟨S_, .i32⟩
  | .hbm, ⟨51, _⟩ => ⟨S1380000, .i32⟩
  | .hbm, ⟨52, _⟩ => ⟨S1380000, .i32⟩
  | .hbm, ⟨53, _⟩ => ⟨S1380000, .i32⟩
  | .hbm, ⟨54, _⟩ => ⟨S1380000x1, .i32⟩
  | .hbm, ⟨55, _⟩ => ⟨S1380000x64, .f32⟩
  | .hbm, ⟨56, _⟩ => ⟨S1380000x1, .f32⟩
  | .hbm, ⟨57, _⟩ => ⟨S1380000x64, .f32⟩
  | .hbm, ⟨58, _⟩ => ⟨S1380000x64, .f32⟩
  | .hbm, ⟨59, _⟩ => ⟨S_, .f32⟩
  | .hbm, ⟨60, _⟩ => ⟨S100000x64, .f32⟩
  | .hbm, ⟨61, _⟩ => ⟨S1380000x1, .i32⟩
  | .hbm, ⟨62, _⟩ => ⟨S100000x64, .f32⟩
  | .hbm, ⟨63, _⟩ => ⟨S1x64, .f32⟩
  | .hbm, ⟨64, _⟩ => ⟨S100000x64, .f32⟩
  | .hbm, ⟨65, _⟩ => ⟨S100000x32, .f32⟩
  | .hbm, ⟨66, _⟩ => ⟨S_, .i32⟩
  | .hbm, ⟨67, _⟩ => ⟨S1380000, .i32⟩
  | .hbm, ⟨68, _⟩ => ⟨S1380000, .i1⟩
  | .hbm, ⟨69, _⟩ => ⟨S_, .i32⟩
  | .hbm, ⟨70, _⟩ => ⟨S1380000, .i32⟩
  | .hbm, ⟨71, _⟩ => ⟨S1380000, .i32⟩
  | .hbm, ⟨72, _⟩ => ⟨S1380000, .i32⟩
  | .hbm, ⟨73, _⟩ => ⟨S1380000x1, .i32⟩
  | .hbm, ⟨74, _⟩ => ⟨S1380000x32, .f32⟩
  | .hbm, ⟨75, _⟩ => ⟨S1380000x1, .f32⟩
  | .hbm, ⟨76, _⟩ => ⟨S1380000x32, .f32⟩
  | .hbm, ⟨77, _⟩ => ⟨S1380000x32, .f32⟩
  | .hbm, ⟨78, _⟩ => ⟨S_, .f32⟩
  | .hbm, ⟨79, _⟩ => ⟨S100000x32, .f32⟩
  | .hbm, ⟨80, _⟩ => ⟨S1380000x1, .i32⟩
  | .hbm, ⟨81, _⟩ => ⟨S100000x32, .f32⟩
  | .hbm, ⟨82, _⟩ => ⟨S1x32, .f32⟩
  | .hbm, ⟨83, _⟩ => ⟨S100000x32, .f32⟩
  | .local _ .vmem, ⟨0, _⟩ => ⟨S10000x128, .f32⟩
  | .local _ .vmem, ⟨1, _⟩ => ⟨S10000x128, .f32⟩
  | .local _ .vmem, ⟨2, _⟩ => ⟨S128x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S1x64, .f32⟩
  | .local _ .vmem, ⟨8, _⟩ => ⟨S10000x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S64x32, .f32⟩
  | .local _ .vmem, ⟨13, _⟩ => ⟨S10000x32, .f32⟩
  | .local _ .vmem, ⟨14, _⟩ => ⟨S10000x32, .f32⟩
  | .local _ .vmem, ⟨15, _⟩ => ⟨S10000x32, .f32⟩
  | .local _ .vmem, ⟨16, _⟩ => ⟨S10000x32, .f32⟩
  | .local _ .vmem, ⟨17, _⟩ => ⟨S1x32, .f32⟩
  | .local _ .vmem, ⟨18, _⟩ => ⟨S10000x32, .f32⟩
  | .local _ .vmem, ⟨19, _⟩ => ⟨S10000x32, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_c_9 : Ref sig .tc := ⟨.hbm, 66, rfl⟩
abbrev main_v47 : Ref sig .tc := ⟨.hbm, 67, rfl⟩
abbrev main_v48 : Ref sig .tc := ⟨.hbm, 68, rfl⟩
abbrev main_c_10 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_11 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x32 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x32 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x32 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x32 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x32 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x1280000_S1x1280000_0_0 : S2x1280000.Slices ![0, 0] S1x1280000
  shapeCasts_S1x1280000_S1280000 : S1x1280000.ShapeCasts S1280000
  concatenates_S1280000_S100000_S1380000_d0 : Shape.Concatenates [S1280000, S100000] S1380000 0
  slices_S2x1280000_S1x1280000_1_0 : S2x1280000.Slices ![1, 0] S1x1280000
  bcast_S_S1380000 : S_.BroadcastsInDim S1380000 (![] : Fin 0 → Fin S1380000.rank)
  bcast_S_S100000 : S_.BroadcastsInDim S100000 (![] : Fin 0 → Fin S100000.rank)
  bcast_S1380000_S1380000x1_0 : S1380000.BroadcastsInDim S1380000x1 (![0] : Fin 1 → Fin S1380000x1.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  bcast_S1380000x1_S1380000x64_0_1 : S1380000x1.BroadcastsInDim S1380000x64 (![0, 1] : Fin 2 → Fin S1380000x64.rank)
  bcast_S_S100000x64 : S_.BroadcastsInDim S100000x64 (![] : Fin 0 → Fin S100000x64.rank)
  shapeCasts_S64_S1x64 : S64.ShapeCasts S1x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  shapeCasts_S10000x64_S10000x64 : S10000x64.ShapeCasts S10000x64
  inb_S64x32_S64x32_0_0 : ∀ a, (![0, 0] : Fin 2 → Nat) a + S64x32.size a ≤ S64x32.size a
  h_S64x32 : 0 < S64x32.numel
  inb_S10000x32_S10000x32_0_0 : ∀ a, (![0, 0] : Fin 2 → Nat) a + S10000x32.size a ≤ S10000x32.size a
  h_S10000x32 : 0 < S10000x32.numel
  bcast_S1380000x1_S1380000x32_0_1 : S1380000x1.BroadcastsInDim S1380000x32 (![0, 1] : Fin 2 → Fin S1380000x32.rank)
  bcast_S_S100000x32 : S_.BroadcastsInDim S100000x32 (![] : Fin 0 → Fin S100000x32.rank)
  shapeCasts_S32_S1x32 : S32.ShapeCasts S1x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S10000x32 : S1x32.Broadcasts S10000x32
  shapeCasts_S10000x32_S10000x32 : S10000x32.ShapeCasts S10000x32
  scatter_S100000_S1380000x1_S1380000_n_0_0_1_wf : ScatterDims.WF S100000 S1380000x1 S1380000 [] [0] [0] 1
  gather_S100000_S1380000x1_S1380000_n_0_n_n_0_1_1_wf : GatherDims.WF S100000 S1380000x1 S1380000 [] [0] [] [0] [] 1 ![1]
  dot_S10000x128_S128x64_S10000x64_1_0_0_1_n_n_wf : DotDims.WF S10000x128 S128x64 S10000x64 [1] [0] [0] [1] [] []
  gather_S100000x64_S1380000x1_S1380000x64_1_0_n_n_0_1_164_wf : GatherDims.WF S100000x64 S1380000x1 S1380000x64 [1] [0] [] [0] [] 1 ![1, 64]
  scatter_S100000x64_S1380000x1_S1380000x64_1_0_0_1_wf : ScatterDims.WF S100000x64 S1380000x1 S1380000x64 [1] [0] [0] 1
  dot_S10000x64_S64x32_S10000x32_1_0_0_1_n_n_wf : DotDims.WF S10000x64 S64x32 S10000x32 [1] [0] [0] [1] [] []
  gather_S100000x32_S1380000x1_S1380000x32_1_0_n_n_0_1_132_wf : GatherDims.WF S100000x32 S1380000x1 S1380000x32 [1] [0] [] [0] [] 1 ![1, 32]
  scatter_S100000x32_S1380000x1_S1380000x32_1_0_0_1_wf : ScatterDims.WF S100000x32 S1380000x1 S1380000x32 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x64.size a ≤ S100000x64.size a
  hwx1_2 : ∀ i : grid1.Coords, EltTy.bits .f32 = 32 ∨ (Rect.block (s := S100000x64) S10000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x32.size a ≤ S64x32.size a
  hwx2_1 : ∀ i : grid2.Coords, EltTy.bits .f32 = 32 ∨ (Rect.block (s := S64x32) S64x32.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x32.size a ≤ S100000x32.size a
  hwx2_2 : ∀ i : grid2.Coords, EltTy.bits .f32 = 32 ∨ (Rect.block (s := S100000x32) S10000x32.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x32.size a ≤ S100000x32.size a
  hwx3_0 : ∀ i : grid3.Coords, EltTy.bits .f32 = 32 ∨ (Rect.block (s := S100000x32) S10000x32.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x32.size a ≤ S1x32.size a
  hwx3_1 : ∀ i : grid3.Coords, EltTy.bits .f32 = 32 ∨ (Rect.block (s := S1x32) S1x32.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x32.size a ≤ S100000x32.size a
  hwx3_2 : ∀ i : grid3.Coords, EltTy.bits .f32 = 32 ∨ (Rect.block (s := S100000x32) S10000x32.size (cc3_transform_2 i) (hinb3_2 i)).WholeWords (EltTy.packing .f32)

variable [Facts₀]

def scatter_S100000_S1380000x1_S1380000_n_0_0_1 : ScatterDims S100000 S1380000x1 S1380000 where
  updateWindowDims := []
  insertedWindowDims := [0]
  scatterDimsToOperandDims := [0]
  indexVectorDim := 1
  wf := scatter_S100000_S1380000x1_S1380000_n_0_0_1_wf
def gather_S100000_S1380000x1_S1380000_n_0_n_n_0_1_1 : GatherDims S100000 S1380000x1 S1380000 where
  offsetDims := []
  collapsedSliceDims := [0]
  operandBatchingDims := []
  startIndicesBatchingDims := []
  startIndexMap := [0]
  indexVectorDim := 1
  sliceSizes := ![1]
  wf := gather_S100000_S1380000x1_S1380000_n_0_n_n_0_1_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S100000x64_S1380000x1_S1380000x64_1_0_n_n_0_1_164 : GatherDims S100000x64 S1380000x1 S1380000x64 where
  offsetDims := [1]
  collapsedSliceDims := [0]
  operandBatchingDims := []
  startIndicesBatchingDims := []
  startIndexMap := [0]
  indexVectorDim := 1
  sliceSizes := ![1, 64]
  wf := gather_S100000x64_S1380000x1_S1380000x64_1_0_n_n_0_1_164_wf
def scatter_S100000x64_S1380000x1_S1380000x64_1_0_0_1 : ScatterDims S100000x64 S1380000x1 S1380000x64 where
  updateWindowDims := [1]
  insertedWindowDims := [0]
  scatterDimsToOperandDims := [0]
  indexVectorDim := 1
  wf := scatter_S100000x64_S1380000x1_S1380000x64_1_0_0_1_wf
def dot_S10000x64_S64x32_S10000x32_1_0_0_1_n_n : DotDims S10000x64 S64x32 S10000x32 where
  lhsContracting := [1]
  rhsContracting := [0]
  lhsNonContracting := [0]
  rhsNonContracting := [1]
  lhsBatch := []
  rhsBatch := []
  wf := dot_S10000x64_S64x32_S10000x32_1_0_0_1_n_n_wf
def gather_S100000x32_S1380000x1_S1380000x32_1_0_n_n_0_1_132 : GatherDims S100000x32 S1380000x1 S1380000x32 where
  offsetDims := [1]
  collapsedSliceDims := [0]
  operandBatchingDims := []
  startIndicesBatchingDims := []
  startIndexMap := [0]
  indexVectorDim := 1
  sliceSizes := ![1, 32]
  wf := gather_S100000x32_S1380000x1_S1380000x32_1_0_n_n_0_1_132_wf
def scatter_S100000x32_S1380000x1_S1380000x32_1_0_0_1 : ScatterDims S100000x32 S1380000x1 S1380000x32 where
  updateWindowDims := [1]
  insertedWindowDims := [0]
  scatterDimsToOperandDims := [0]
  indexVectorDim := 1
  wf := scatter_S100000x32_S1380000x1_S1380000x32_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S10000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S64x32.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S10000x32.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v59) S10000x32.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v60) S1x32.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v61) S10000x32.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x1280000 : Shape := ⟨2, ![2, 1280000]⟩
abbrev S128x64 : Shape := ⟨2, ![128, 64]⟩
abbrev S64 : Shape := ⟨1, ![64]⟩
abbrev S64x32 : Shape := ⟨2, ![64, 32]⟩
abbrev S32 : Shape := ⟨1, ![32]⟩
abbrev S100000 : Shape := ⟨1, ![100000]⟩
abbrev S1x1280000 : Shape := ⟨2, ![1, 1280000]⟩
abbrev S1280000 : Shape := ⟨1, ![1280000]⟩
abbrev S1380000 : Shape := ⟨1, ![1380000]⟩
abbrev S_ : Shape := ⟨0, ![]⟩
abbrev S1380000x1 : Shape := ⟨2, ![1380000, 1]⟩
abbrev S100000x64 : Shape := ⟨2, ![100000, 64]⟩
abbrev S1380000x64 : Shape := ⟨2, ![1380000, 64]⟩
abbrev S1x64 : Shape := ⟨2, ![1, 64]⟩
abbrev S100000x32 : Shape := ⟨2, ![100000, 32]⟩
abbrev S1380000x32 : Shape := ⟨2, ![1380000, 32]⟩
abbrev S1x32 : Shape := ⟨2, ![1, 32]⟩

abbrev nBuf : Space → Nat
  | .hbm => 89
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1280000, .i32⟩
  | .hbm, ⟨2, _⟩ => ⟨S128x64, .f32⟩
  | .hbm, ⟨3, _⟩ => ⟨S64, .f32⟩
  | .hbm, ⟨4, _⟩ => ⟨S64x32, .f32⟩
  | .hbm, ⟨5, _⟩ => ⟨S32, .f32⟩
  | .hbm, ⟨6, _⟩ => ⟨S100000, .i32⟩
  | .hbm, ⟨7, _⟩ => ⟨S1x1280000, .i32⟩
  | .hbm, ⟨8, _⟩ => ⟨S1280000, .i32⟩
  | .hbm, ⟨9, _⟩ => ⟨S1380000, .i32⟩
  | .hbm, ⟨10, _⟩ => ⟨S1x1280000, .i32⟩
  | .hbm, ⟨11, _⟩ => ⟨S1280000, .i32⟩
  | .hbm, ⟨12, _⟩ => ⟨S1380000, .i32⟩
  | .hbm, ⟨13, _⟩ => ⟨S_, .f32⟩
  | .hbm, ⟨14, _⟩ => ⟨S1380000, .f32⟩
  | .hbm, ⟨15, _⟩ => ⟨S_, .f32⟩
  | .hbm, ⟨16, _⟩ => ⟨S100000, .f32⟩
  | .hbm, ⟨17, _⟩ => ⟨S1380000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1380000, .i32⟩
  | .hbm, ⟨29, _⟩ => ⟨S1380000, .i1⟩
  | .hbm, ⟨30, _⟩ => ⟨S_, .i32⟩
  | .hbm, ⟨31, _⟩ => ⟨S1380000, .i32⟩
  | .hbm, ⟨32, _⟩ => ⟨S1380000, .i32⟩
  | .hbm, ⟨33, _⟩ => ⟨S1380000, .i32⟩
  | .hbm, ⟨34, _⟩ => ⟨S1380000x1, .i32⟩
  | .hbm, ⟨35, _⟩ => ⟨S1380000, .f32⟩
  | .hbm, ⟨36, _⟩ => ⟨S_, .i32⟩
  | .hbm, ⟨37, _⟩ => ⟨S1380000, .i32⟩
  | .hbm, ⟨38, _⟩ => ⟨S1380000, .i1⟩
  | .hbm, ⟨39, _⟩ => ⟨S_, .i32⟩
  | .hbm, ⟨40, _⟩ => ⟨S1380000, .i32⟩
  | .hbm, ⟨41, _⟩ => ⟨S1380000, .i32⟩
  | .hbm, ⟨42, _⟩ => ⟨S1380000, .i32⟩
  | .hbm, ⟨43, _⟩ => ⟨S1380000x1, .i32⟩
  | .hbm, ⟨44, _⟩ => ⟨S1380000, .f32⟩
  | .hbm, ⟨45, _⟩ => ⟨S1380000, .f32⟩
  | .hbm, ⟨46, _⟩ => ⟨S100000x64, .f32⟩
  | .hbm, ⟨47, _⟩ => ⟨S_, .i32⟩
  | .hbm, ⟨48, _⟩ => ⟨S1380000, .i32⟩
  | .hbm, ⟨49, _⟩ => ⟨S1380000, .i1⟩
  | .hbm, ⟨50, _⟩ => ⟨S_, .i32⟩
  | .hbm, ⟨51, _⟩ => ⟨S1380000, .i32⟩
  | .hbm, ⟨52, _⟩ => ⟨S1380000, .i32⟩
  | .hbm, ⟨53, _⟩ => ⟨S1380000, .i32⟩
  | .hbm, ⟨54, _⟩ => ⟨S1380000x1, .i32⟩
  | .hbm, ⟨55, _⟩ => ⟨S1380000x64, .f32⟩
  | .hbm, ⟨56, _⟩ => ⟨S1380000x1, .f32⟩
  | .hbm, ⟨57, _⟩ => ⟨S1380000x64, .f32⟩
  | .hbm, ⟨58, _⟩ => ⟨S1380000x64, .f32⟩
  | .hbm, ⟨59, _⟩ => ⟨S_, .f32⟩
  | .hbm, ⟨60, _⟩ => ⟨S100000x64, .f32⟩
  | .hbm, ⟨61, _⟩ => ⟨S1380000x1, .i32⟩
  | .hbm, ⟨62, _⟩ => ⟨S100000x64, .f32⟩
  | .hbm, ⟨63, _⟩ => ⟨S1x64, .f32⟩
  | .hbm, ⟨64, _⟩ => ⟨S100000x64, .f32⟩
  | .hbm, ⟨65, _⟩ => ⟨S100000x64, .f32⟩
  | .hbm, ⟨66, _⟩ => ⟨S_, .f32⟩
  | .hbm, ⟨67, _⟩ => ⟨S100000x64, .f32⟩
  | .hbm, ⟨68, _⟩ => ⟨S100000x64, .f32⟩
  | .hbm, ⟨69, _⟩ => ⟨S100000x32, .f32⟩
  | .hbm, ⟨70, _⟩ => ⟨S_, .i32⟩
  | .hbm, ⟨71, _⟩ => ⟨S1380000, .i32⟩
  | .hbm, ⟨72, _⟩ => ⟨S1380000, .i1⟩
  | .hbm, ⟨73, _⟩ => ⟨S_, .i32⟩
  | .hbm, ⟨74, _⟩ => ⟨S1380000, .i32⟩
  | .hbm, ⟨75, _⟩ => ⟨S1380000, .i32⟩
  | .hbm, ⟨76, _⟩ => ⟨S1380000, .i32⟩
  | .hbm, ⟨77, _⟩ => ⟨S1380000x1, .i32⟩
  | .hbm, ⟨78, _⟩ => ⟨S1380000x32, .f32⟩
  | .hbm, ⟨79, _⟩ => ⟨S1380000x1, .f32⟩
  | .hbm, ⟨80, _⟩ => ⟨S1380000x32, .f32⟩
  | .hbm, ⟨81, _⟩ => ⟨S1380000x32, .f32⟩
  | .hbm, ⟨82, _⟩ => ⟨S_, .f32⟩
  | .hbm, ⟨83, _⟩ => ⟨S100000x32, .f32⟩
  | .hbm, ⟨84, _⟩ => ⟨S1380000x1, .i32⟩
  | .hbm, ⟨85, _⟩ => ⟨S100000x32, .f32⟩
  | .hbm, ⟨86, _⟩ => ⟨S1x32, .f32⟩
  | .hbm, ⟨87, _⟩ => ⟨S100000x32, .f32⟩
  | .hbm, ⟨88, _⟩ => ⟨S100000x32, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩

abbrev nD : Nat := 1
abbrev τ : Topo := Topo.v7x

variable {F : FTy → Type} [FloatOps F]

class Facts₀ : Prop where
  slices_S2x1280000_S1x1280000_0_0 : S2x1280000.Slices ![0, 0] S1x1280000
  shapeCasts_S1x1280000_S1280000 : S1x1280000.ShapeCasts S1280000
  concatenates_S1280000_S100000_S1380000_d0 : Shape.Concatenates [S1280000, S100000] S1380000 0
  slices_S2x1280000_S1x1280000_1_0 : S2x1280000.Slices ![1, 0] S1x1280000
  bcast_S_S1380000 : S_.BroadcastsInDim S1380000 (![] : Fin 0 → Fin S1380000.rank)
  bcast_S_S100000 : S_.BroadcastsInDim S100000 (![] : Fin 0 → Fin S100000.rank)
  bcast_S1380000_S1380000x1_0 : S1380000.BroadcastsInDim S1380000x1 (![0] : Fin 1 → Fin S1380000x1.rank)
  bcast_S1380000x1_S1380000x64_0_1 : S1380000x1.BroadcastsInDim S1380000x64 (![0, 1] : Fin 2 → Fin S1380000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1380000x1_S1380000x32_0_1 : S1380000x1.BroadcastsInDim S1380000x32 (![0, 1] : Fin 2 → Fin S1380000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  scatter_S100000_S1380000x1_S1380000_n_0_0_1_wf : ScatterDims.WF S100000 S1380000x1 S1380000 [] [0] [0] 1
  gather_S100000_S1380000x1_S1380000_n_0_n_n_0_1_1_wf : GatherDims.WF S100000 S1380000x1 S1380000 [] [0] [] [0] [] 1 ![1]
  dot_S100000x128_S128x64_S100000x64_1_0_0_1_n_n_wf : DotDims.WF S100000x128 S128x64 S100000x64 [1] [0] [0] [1] [] []
  gather_S100000x64_S1380000x1_S1380000x64_1_0_n_n_0_1_164_wf : GatherDims.WF S100000x64 S1380000x1 S1380000x64 [1] [0] [] [0] [] 1 ![1, 64]
  scatter_S100000x64_S1380000x1_S1380000x64_1_0_0_1_wf : ScatterDims.WF S100000x64 S1380000x1 S1380000x64 [1] [0] [0] 1
  dot_S100000x64_S64x32_S100000x32_1_0_0_1_n_n_wf : DotDims.WF S100000x64 S64x32 S100000x32 [1] [0] [0] [1] [] []
  gather_S100000x32_S1380000x1_S1380000x32_1_0_n_n_0_1_132_wf : GatherDims.WF S100000x32 S1380000x1 S1380000x32 [1] [0] [] [0] [] 1 ![1, 32]
  scatter_S100000x32_S1380000x1_S1380000x32_1_0_0_1_wf : ScatterDims.WF S100000x32 S1380000x1 S1380000x32 [1] [0] [0] 1

variable [Facts₀]

def scatter_S100000_S1380000x1_S1380000_n_0_0_1 : ScatterDims S100000 S1380000x1 S1380000 where
  updateWindowDims := []
  insertedWindowDims := [0]
  scatterDimsToOperandDims := [0]
  indexVectorDim := 1
  wf := scatter_S100000_S1380000x1_S1380000_n_0_0_1_wf
def gather_S100000_S1380000x1_S1380000_n_0_n_n_0_1_1 : GatherDims S100000 S1380000x1 S1380000 where
  offsetDims := []
  collapsedSliceDims := [0]
  operandBatchingDims := []
  startIndicesBatchingDims := []
  startIndexMap := [0]
  indexVectorDim := 1
  sliceSizes := ![1]
  wf := gather_S100000_S1380000x1_S1380000_n_0_n_n_0_1_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1380000x1_S1380000x64_1_0_n_n_0_1_164 : GatherDims S100000x64 S1380000x1 S1380000x64 where
  offsetDims := [1]
  collapsedSliceDims := [0]
  operandBatchingDims := []
  startIndicesBatchingDims := []
  startIndexMap := [0]
  indexVectorDim := 1
  sliceSizes := ![1, 64]
  wf := gather_S100000x64_S1380000x1_S1380000x64_1_0_n_n_0_1_164_wf
def scatter_S100000x64_S1380000x1_S1380000x64_1_0_0_1 : ScatterDims S100000x64 S1380000x1 S1380000x64 where
  updateWindowDims := [1]
  insertedWindowDims := [0]
  scatterDimsToOperandDims := [0]
  indexVectorDim := 1
  wf := scatter_S100000x64_S1380000x1_S1380000x64_1_0_0_1_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf
def gather_S100000x32_S1380000x1_S1380000x32_1_0_n_n_0_1_132 : GatherDims S100000x32 S1380000x1 S1380000x32 where
  offsetDims := [1]
  collapsedSliceDims := [0]
  operandBatchingDims := []
  startIndicesBatchingDims := []
  startIndexMap := [0]
  indexVectorDim := 1
  sliceSizes := ![1, 32]
  wf := gather_S100000x32_S1380000x1_S1380000x32_1_0_n_n_0_1_132_wf
def scatter_S100000x32_S1380000x1_S1380000x32_1_0_0_1 : ScatterDims S100000x32 S1380000x1 S1380000x32 where
  updateWindowDims := [1]
  insertedWindowDims := [0]
  scatterDimsToOperandDims := [0]
  indexVectorDim := 1
  wf := scatter_S100000x32_S1380000x1_S1380000x32_1_0_0_1_wf

class Facts : Prop extends Facts₀ where

variable [Facts]
-- ==== Proof.Walk1.lean ====
/-
  The first stretch of the idealized kernel program, up to its first launch.
  Before the first launch the host builds, from the edge list alone: the source and target endpoints of every edge with one
  self-loop per node appended, the degree of every node (ones added up at the targets), its inverse square root where the
  degree is positive and zero elsewhere, and the weight of every edge (the product of that quantity at its two endpoints).
  These are the very operations the reference applies, in the same order, so each buffer holds the reference's stage of the
  same name, as a function of the edge list. The stretch is read in three steps, each from the contents the step before
  left, so that no step has to look further back than its own operations.
-/
import proofs.«160953_j89300960019180_1_alg».proof.Proof.Gen.KernelIdeal.Frame
import proofs.«160953_j89300960019180_1_alg».proof.Proof.RefReadPatched
import Idealize.ShloMosaic.Lib.StableHlo.Run

noncomputable section

namespace Cert.KernelIdeal.Walk

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## The arguments reach the first launch untouched -/

theorem arg0_3 : W3 m ρ c (Proc.devRef .tc main_arg0) = m ((c : Thread nD τ).loc main_arg0) := by
  show StableHlo.after hostOps0_2 (StableHlo.after hostOps0_1 (StableHlo.after hostOps0 (W0 m ρ c))) (Proc.devRef .tc main_arg0) = _
  after_results

theorem arg2_3 : W3 m ρ c (Proc.devRef .tc main_arg2) = m ((c : Thread nD τ).loc main_arg2) := by
  show StableHlo.after hostOps0_2 (StableHlo.after hostOps0_1 (StableHlo.after hostOps0 (W0 m ρ c))) (Proc.devRef .tc main_arg2) = _
  after_results

theorem arg3_3 : W3 m ρ c (Proc.devRef .tc main_arg3) = m ((c : Thread nD τ).loc main_arg3) := by
  show StableHlo.after hostOps0_2 (StableHlo.after hostOps0_1 (StableHlo.after hostOps0 (W0 m ρ c))) (Proc.devRef .tc main_arg3) = _
  after_results

theorem arg4_3 : W3 m ρ c (Proc.devRef .tc main_arg4) = m ((c : Thread nD τ).loc main_arg4) := by
  show StableHlo.after hostOps0_2 (StableHlo.after hostOps0_1 (StableHlo.after hostOps0 (W0 m ρ c))) (Proc.devRef .tc main_arg4) = _
  after_results

theorem arg5_3 : W3 m ρ c (Proc.devRef .tc main_arg5) = m ((c : Thread nD τ).loc main_arg5) := by
  show StableHlo.after hostOps0_2 (StableHlo.after hostOps0_1 (StableHlo.after hostOps0 (W0 m ρ c))) (Proc.devRef .tc main_arg5) = _
  after_results

/-! ## Step one: endpoints and degrees -/

/-- The sources of the edges, self-loops appended. -/
theorem src1 : W1 m ρ c (Proc.devRef .tc main_v3) = Cert.ReferenceIdeal.ReadP.val_main_v3 (F := Ideal) (m ((c : Thread nD τ).loc main_arg1)) := by
  show StableHlo.after hostOps0 (W0 m ρ c) (Proc.devRef .tc main_v3) = _
  after_results
  rfl

/-- The targets of the edges, self-loops appended. -/
theorem dst1 : W1 m ρ c (Proc.devRef .tc main_v6) = Cert.ReferenceIdeal.ReadP.val_main_v6 (F := Ideal) (m ((c : Thread nD τ).loc main_arg1)) := by
  show StableHlo.after hostOps0 (W0 m ρ c) (Proc.devRef .tc main_v6) = _
  after_results
  rfl

set_option maxHeartbeats 1000000 in
/-- Where the degree is positive. -/
theorem pos1 : W1 m ρ c (Proc.devRef .tc main_v12) = Cert.ReferenceIdeal.ReadP.val_main_v12 (F := Ideal) (m ((c : Thread nD τ).loc main_arg1)) := by
  show StableHlo.after hostOps0 (W0 m ρ c) (Proc.devRef .tc main_v12) = _
  after_results
  rfl

set_option maxHeartbeats 1000000 in
/-- The inverse square root of the degree. -/
theorem rsq1 : W1 m ρ c (Proc.devRef .tc main_v13) = Cert.ReferenceIdeal.ReadP.val_main_v13 (F := Ideal) (m ((c : Thread nD τ).loc main_arg1)) := by
  show StableHlo.after hostOps0 (W0 m ρ c) (Proc.devRef .tc main_v13) = _
  after_results
  rfl

theorem zero1 : W1 m ρ c (Proc.devRef .tc main_cst_2) = Cert.ReferenceIdeal.ReadP.val_main_cst_2 (F := Ideal) := by
  show StableHlo.after hostOps0 (W0 m ρ c) (Proc.devRef .tc main_cst_2) = _
  after_results
  rfl

/-! ## Step two: the inverse square roots, zero where the degree is not positive -/

theorem src2 : W2 m ρ c (Proc.devRef .tc main_v3) = Cert.ReferenceIdeal.ReadP.val_main_v3 (F := Ideal) (m ((c : Thread nD τ).loc main_arg1)) := by
  show StableHlo.after hostOps0_1 (W1 m ρ c) (Proc.devRef .tc main_v3) = _
  have h := src1 m ρ c
  generalize W1 m ρ c = G at h ⊢
  after_results
  exact h

theorem dst2 : W2 m ρ c (Proc.devRef .tc main_v6) = Cert.ReferenceIdeal.ReadP.val_main_v6 (F := Ideal) (m ((c : Thread nD τ).loc main_arg1)) := by
  show StableHlo.after hostOps0_1 (W1 m ρ c) (Proc.devRef .tc main_v6) = _
  have h := dst1 m ρ c
  generalize W1 m ρ c = G at h ⊢
  after_results
  exact h

/-- The select between the inverse square root and zero, as the host function that computes it writes it: its buffers' contents
    are carried at the buffers' own types, which are the values' types. -/
theorem select_zero (A : (⟨Cert.ReferenceIdeal.S100000, .i1⟩ : BufTy).Contents (Elt Ideal)) (B : (⟨Cert.ReferenceIdeal.S100000, .f32⟩ : BufTy).Contents (Elt Ideal)) (Z : (⟨Cert.ReferenceIdeal.S_, .f32⟩ : BufTy).Contents (Elt Ideal)) :
    ((TRef.of main_v14 hostOps0_1._proof_16 hostOps0_1._proof_17 hostOps0_1._proof_18) : TRef sig ⟨S100000, .f32⟩).toBuf (select (((TRef.of main_v12 hostOps0_1._proof_10 hostOps0_1._proof_11 hostOps0_1._proof_12) : TRef sig ⟨S100000, .i1⟩).ofBuf A) (((TRef.of main_v13 hostOps0_1._proof_13 hostOps0_1._proof_14 hostOps0_1._proof_15) : TRef sig ⟨S100000, .f32⟩).ofBuf B)
      (((TRef.of main_call0_v1 hostOps0_1._proof_7 hostOps0_1._proof_8 hostOps0_1._proof_9) : TRef sig ⟨S100000, .f32⟩).ofBuf (((TRef.of main_call0_v1 hostOps0_1._proof_7 hostOps0_1._proof_8 hostOps0_1._proof_9) : TRef sig ⟨S100000, .f32⟩).toBuf
        (broadcastInDim S100000 ![] bcast_S_S100000 (((TRef.of main_call0_v0 hostOps0_1._proof_4 hostOps0_1._proof_5 hostOps0_1._proof_6) : TRef sig ⟨S_, .f32⟩).ofBuf (((TRef.of main_call0_v0 hostOps0_1._proof_4 hostOps0_1._proof_5 hostOps0_1._proof_6) : TRef sig ⟨S_, .f32⟩).toBuf (id (((TRef.of main_cst_2 hostOps0_1._proof_1 hostOps0_1._proof_2 hostOps0_1._proof_3) : TRef sig ⟨S_, .f32⟩).ofBuf Z))))))))
    = select A B (broadcastInDim Cert.ReferenceIdeal.S100000 ![] Cert.ReferenceIdeal.Gen.bcast_S_S100000 (id Z)) := rfl

/-- The inverse square root of every node's degree, zero where the degree is not positive. -/
theorem dinv2 : W2 m ρ c (Proc.devRef .tc main_v14) = Cert.ReferenceIdeal.ReadP.val_main_v14 (F := Ideal) (m ((c : Thread nD τ).loc main_arg1)) := by
  show StableHlo.after hostOps0_1 (W1 m ρ c) (Proc.devRef .tc main_v14) = _
  have h12 := pos1 m ρ c
  have h13 := rsq1 m ρ c
  have h0 := zero1 m ρ c
  generalize W1 m ρ c = G at h12 h13 h0 ⊢
  after_results
  rw [h12, h13, h0]
  unfold Cert.ReferenceIdeal.ReadP.val_main_v14 Cert.ReferenceIdeal.ReadP.val_main_call0_v1 Cert.ReferenceIdeal.ReadP.val_main_call0_v0
  exact select_zero _ _ _

/-! ## Step three: the edge weights -/

theorem src3 : W3 m ρ c (Proc.devRef .tc main_v3) = Cert.ReferenceIdeal.ReadP.val_main_v3 (F := Ideal) (m ((c : Thread nD τ).loc main_arg1)) := by
  show StableHlo.after hostOps0_2 (W2 m ρ c) (Proc.devRef .tc main_v3) = _
  have h := src2 m ρ c
  generalize W2 m ρ c = G at h ⊢
  after_results
  exact h

theorem dst3 : W3 m ρ c (Proc.devRef .tc main_v6) = Cert.ReferenceIdeal.ReadP.val_main_v6 (F := Ideal) (m ((c : Thread nD τ).loc main_arg1)) := by
  show StableHlo.after hostOps0_2 (W2 m ρ c) (Proc.devRef .tc main_v6) = _
  have h := dst2 m ρ c
  generalize W2 m ρ c = G at h ⊢
  after_results
  exact h

set_option maxHeartbeats 1000000 in
/-- The weight of every edge: the product of the inverse square roots at its two endpoints. -/
theorem norm3 : W3 m ρ c (Proc.devRef .tc main_v29) = Cert.ReferenceIdeal.ReadP.val_main_v29 (F := Ideal) (m ((c : Thread nD τ).loc main_arg1)) := by
  show StableHlo.after hostOps0_2 (W2 m ρ c) (Proc.devRef .tc main_v29) = _
  have h14 := dinv2 m ρ c
  have h3 := src2 m ρ c
  have h6 := dst2 m ρ c
  generalize W2 m ρ c = G at h14 h3 h6 ⊢
  after_results
  rw [h14, h3, h6]
  unfold Cert.ReferenceIdeal.ReadP.val_main_v29 Cert.ReferenceIdeal.ReadP.val_main_v21 Cert.ReferenceIdeal.ReadP.val_main_v28
    Cert.ReferenceIdeal.ReadP.val_main_v20 Cert.ReferenceIdeal.ReadP.val_main_v27 Cert.ReferenceIdeal.ReadP.val_main_v19 Cert.ReferenceIdeal.ReadP.val_main_v26
    Cert.ReferenceIdeal.ReadP.val_main_v16 Cert.ReferenceIdeal.ReadP.val_main_v18 Cert.ReferenceIdeal.ReadP.val_main_v23 Cert.ReferenceIdeal.ReadP.val_main_v25
    Cert.ReferenceIdeal.ReadP.val_main_v15 Cert.ReferenceIdeal.ReadP.val_main_v17 Cert.ReferenceIdeal.ReadP.val_main_v22 Cert.ReferenceIdeal.ReadP.val_main_v24
    Cert.ReferenceIdeal.ReadP.val_main_c Cert.ReferenceIdeal.ReadP.val_main_c_3 Cert.ReferenceIdeal.ReadP.val_main_c_4 Cert.ReferenceIdeal.ReadP.val_main_c_5
  generalize Cert.ReferenceIdeal.ReadP.val_main_v14 (F := Ideal) (m ((c : Thread nD τ).loc main_arg1)) = D
  generalize Cert.ReferenceIdeal.ReadP.val_main_v3 (F := Ideal) (m ((c : Thread nD τ).loc main_arg1)) = S
  generalize Cert.ReferenceIdeal.ReadP.val_main_v6 (F := Ideal) (m ((c : Thread nD τ).loc main_arg1)) = T
  exact rfl

end Cert.KernelIdeal.Walk

end
-- ==== Proof.Dense1.lean ====
/-
  Layer 1's dense product, read off the first launch. The launch walks ten blocks of 10000 rows; at block `t` the body
  multiplies rows `10000·t … 10000·t + 9999` of the node features (narrowed to bf16, which changes nothing over the
  extended reals) into the whole 128 × 64 weight matrix, from a zero accumulator. So entry `(r, q)` of the block is
  `∑ k, x[10000·t + r, k] · w[k, q]`, the blocks tile the 100000 rows, and the array the launch leaves is the plain
  product `x · w`, entry by entry.
-/
import proofs.«160953_j89300960019180_1_alg».proof.Proof.Gen.KernelIdeal.Frame
import Idealize.ShloMosaic.Lib.Pipeline.Value
import Idealize.ShloMosaic.Lib.ValueIdx
import Idealize.ShloMosaic.PureOps.Ideal.Laws

noncomputable section

namespace Cert.KernelIdeal.Dense1

open Cert.KernelIdeal Cert.KernelIdeal.Gen Idealize.ShloMosaic Idealize.ShloMosaic.TcCoe Idealize.SL.Sem
open Idealize.ShloMosaic.Pipeline (Dat)

/-! ## One block: the body's product at an entry -/

/-- Entry `(r, k)` of the block's left operand, for the output entry `j = (r, q)`. -/
abbrev lcoord (j : S10000x64.Idx) (k : Fin 128) : S10000x128.Idx := fun a => match a with
  | ⟨0, _⟩ => ⟨(j 0).val, (j 0).isLt⟩
  | ⟨1, _⟩ => ⟨k.val, k.isLt⟩
/-- Entry `(k, q)` of the right operand. -/
abbrev rcoord (j : S10000x64.Idx) (k : Fin 128) : S128x64.Idx := fun a => match a with
  | ⟨0, _⟩ => ⟨k.val, k.isLt⟩
  | ⟨1, _⟩ => ⟨(j 1).val, (j 1).isLt⟩

theorem lhs0 (j : S10000x64.Idx) (q : dot_S10000x128_S128x64_S10000x64_1_0_0_1_n_n.contr.Idx) :
    (dot_S10000x128_S128x64_S10000x64_1_0_0_1_n_n.lhsIdx j q 0).val = (j 0).val := by
  unfold DotDims.lhsIdx
  rw [dif_neg (show ¬(0 : Fin S10000x128.rank) ∈ dot_S10000x128_S128x64_S10000x64_1_0_0_1_n_n.lhsBatch by decide), dif_pos (show (0 : Fin S10000x128.rank) ∈ dot_S10000x128_S128x64_S10000x64_1_0_0_1_n_n.lhsNonContracting by decide)]
  rfl
theorem lhs1 (j : S10000x64.Idx) (q : dot_S10000x128_S128x64_S10000x64_1_0_0_1_n_n.contr.Idx) :
    (dot_S10000x128_S128x64_S10000x64_1_0_0_1_n_n.lhsIdx j q 1).val = (q ⟨0, by decide⟩).val :=
  dot_S10000x128_S128x64_S10000x64_1_0_0_1_n_n.lhsIdx_val_of_single rfl j q
theorem rhs0 (j : S10000x64.Idx) (q : dot_S10000x128_S128x64_S10000x64_1_0_0_1_n_n.contr.Idx) :
    (dot_S10000x128_S128x64_S10000x64_1_0_0_1_n_n.rhsIdx j q 0).val = (q ⟨0, by decide⟩).val :=
  dot_S10000x128_S128x64_S10000x64_1_0_0_1_n_n.rhsIdx_val_of_single rfl j q
theorem rhs1 (j : S10000x64.Idx) (q : dot_S10000x128_S128x64_S10000x64_1_0_0_1_n_n.contr.Idx) :
    (dot_S10000x128_S128x64_S10000x64_1_0_0_1_n_n.rhsIdx j q 1).val = (j 1).val := by
  unfold DotDims.rhsIdx
  rw [dif_neg (show ¬(1 : Fin S128x64.rank) ∈ dot_S10000x128_S128x64_S10000x64_1_0_0_1_n_n.rhsBatch by decide), dif_pos (show (1 : Fin S128x64.rank) ∈ dot_S10000x128_S128x64_S10000x64_1_0_0_1_n_n.rhsNonContracting by decide)]
  rfl

/-- The body's stored value at entry `j = (r, q)` of the block: `∑ k, x0[r, k] · x1[k, q]` (the narrowing to bf16 is the
    identity on extended reals, the accumulator starts at zero). -/
theorem block_product (x0 : Vec Ideal S10000x128 .f32) (x1 : Vec Ideal S128x64 .f32) (j : S10000x64.Idx) :
    k0_pay1 (F := Ideal) x0 x1 j = ∑ k : Fin 128, x0 (lcoord j k) * x1 (rcoord j k) := by
  unfold k0_pay1
  simp only [matmul]
  rw [Ideal.matmul_constant_zero_apply, ← Equiv.sum_comp (ValueIdx.contrEquiv1 dot_S10000x128_S128x64_S10000x64_1_0_0_1_n_n 128 rfl rfl).symm]
  refine Finset.sum_congr rfl fun k _ => ?_
  have hk := ValueIdx.contrEquiv1_symm_val dot_S10000x128_S128x64_S10000x64_1_0_0_1_n_n 128 rfl rfl k
  have el : dot_S10000x128_S128x64_S10000x64_1_0_0_1_n_n.lhsIdx j ((ValueIdx.contrEquiv1 dot_S10000x128_S128x64_S10000x64_1_0_0_1_n_n 128 rfl rfl).symm k) = lcoord j k := funext fun a => Fin.ext (by
    match a with
    | ⟨0, _⟩ => exact lhs0 _ _
    | ⟨1, _⟩ => exact (lhs1 _ _).trans hk)
  have er : dot_S10000x128_S128x64_S10000x64_1_0_0_1_n_n.rhsIdx j ((ValueIdx.contrEquiv1 dot_S10000x128_S128x64_S10000x64_1_0_0_1_n_n 128 rfl rfl).symm k) = rcoord j k := funext fun a => Fin.ext (by
    match a with
    | ⟨0, _⟩ => exact (rhs0 _ _).trans hk
    | ⟨1, _⟩ => exact rhs1 _ _)
  rw [el, er]
  rfl

/-! ## The launch: the blocks tile the rows -/

theorem origin : (![0, 0] : Fin 2 → Nat) = fun _ => 0 := funext fun a => by fin_cases a <;> rfl

/-- Block `t` of the features and of the result starts at row `10000·t`; the weight matrix is one block. -/
theorem block_origin : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Entry `(i₀, k)` of the features and `(k, i₁)` of the weights, for the output entry `i`. -/
abbrev lrow (i : S100000x64.Idx) (k : Fin 128) : S100000x128.Idx := fun a => match a with
  | ⟨0, _⟩ => ⟨(i 0).val, (i 0).isLt⟩
  | ⟨1, _⟩ => ⟨k.val, k.isLt⟩
abbrev rcol (i : S100000x64.Idx) (k : Fin 128) : S128x64.Idx := fun a => match a with
  | ⟨0, _⟩ => ⟨k.val, k.isLt⟩
  | ⟨1, _⟩ => ⟨(i 1).val, (i 1).isLt⟩

/-- The plain product of a 100000 × 128 array with a 128 × 64 one. -/
def product (x : S100000x128.Idx → EReal) (w : S128x64.Idx → EReal) : S100000x64.Idx → EReal :=
  fun i => ∑ k : Fin 128, x (lrow i k) * w (rcol i k)

variable (V : (c : Dev nD) → (b : Ref sig .tc) → Buf (Elt Ideal) ((c : Thread nD τ).loc b))

/-- What block `t` writes back is block `t` of the product of the arrays the launch finds. -/
theorem flushed_eq (c : Dev nD) (t : Fin cfg0.N) :
    (dat0 V c).flushed 2 t = ((cfg0.win 2).blk t).view.read (Elt Ideal) (product (V c main_arg0) (V c main_arg2)) := by
  show (cfg0.win 2).cut (grid0.coords t) ((dat0 V c).after 2 t) = _
  rw [after0_2]
  unfold out0_2
  rw [View.canon_unit_zero origin]
  simp only [View.ld_unit_zero (S := S10000x128) origin, View.ld_unit_zero (S := S128x64) origin]
  obtain ⟨e0, e1, e2, e3, e4, e5⟩ := block_origin t
  funext j
  refine (block_product (iblk0 V c 0 t) (iblk0 V c 1 t) j).trans ?_
  show _ = product (V c main_arg0) (V c main_arg2) (((cfg0.win 2).blk t).view.emb j)
  unfold product
  refine Finset.sum_congr rfl fun k _ => ?_
  have hl : iblk0 V c 0 t (lcoord j k) = (V c main_arg0 : S100000x128.Idx → EReal) (lrow (((cfg0.win 2).blk t).view.emb j) k) := by
    show (V c main_arg0 : S100000x128.Idx → EReal) (((cfg0.win 0).blk t).view.emb (lcoord j k)) = _
    refine congrArg (V c main_arg0 : S100000x128.Idx → EReal) (funext fun a => Fin.ext ?_)
    match a with
    | ⟨0, _⟩ => show win0_0.index t (0 : Fin 2) * 10000 + 1 * (j 0).val = win0_2.index t (0 : Fin 2) * 10000 + 1 * (j 0).val; omega
    | ⟨1, _⟩ => show win0_0.index t (1 : Fin 2) * 128 + 1 * k.val = k.val; omega
  have hr : iblk0 V c 1 t (rcoord j k) = (V c main_arg2 : S128x64.Idx → EReal) (rcol (((cfg0.win 2).blk t).view.emb j) k) := by
    show (V c main_arg2 : S128x64.Idx → EReal) (((cfg0.win 1).blk t).view.emb (rcoord j k)) = _
    refine congrArg (V c main_arg2 : S128x64.Idx → EReal) (funext fun a => Fin.ext ?_)
    match a with
    | ⟨0, _⟩ => show win0_1.index t (0 : Fin 2) * 128 + 1 * k.val = k.val; omega
    | ⟨1, _⟩ => show win0_1.index t (1 : Fin 2) * 64 + 1 * (j 1).val = win0_2.index t (1 : Fin 2) * 64 + 1 * (j 1).val; omega
  rw [hl, hr]

/-- An entry of the result is in block `t` iff its row is among the block's 10000 rows. -/
theorem mem_block (t : Fin cfg0.N) (i : S100000x64.Idx) :
    i ∈ ((cfg0.win 2).blk t).view.set ↔ ∀ a : Fin 2, win0_2.index t a * S10000x64.size a ≤ (i a).val ∧ (i a).val < win0_2.index t a * S10000x64.size a + S10000x64.size a := by
  show i ∈ ((View.whole main_v30).slice (win0_2.rect t)).set ↔ _
  rw [View.set_slice_whole, Rect.mem_set_unit]
  exact Iff.rfl

/-- Every entry is in the block of its row's quotient by 10000. -/
theorem covered (i : S100000x64.Idx) : ∃ t : Fin cfg0.N, (cfg0.win 2).flush t = true ∧ i ∈ ((cfg0.win 2).blk t).view.set := by
  have hi0 : (i 0).val < 100000 := (i 0).isLt
  have hi1 : (i 1).val < 64 := (i 1).isLt
  have hN : (i 0).val / 10000 < cfg0.N := by show (i 0).val / 10000 < grid0.N; rw [N_0]; omega
  refine ⟨⟨(i 0).val / 10000, hN⟩, flush0_2 _, ?_⟩
  rw [mem_block]
  obtain ⟨e0, e1, e2, e3, e4, e5⟩ := block_origin ⟨(i 0).val / 10000, hN⟩
  intro a
  match a with
  | ⟨0, _⟩ => show win0_2.index ⟨(i 0).val / 10000, hN⟩ (0 : Fin 2) * 10000 ≤ (i 0).val ∧ (i 0).val < win0_2.index ⟨(i 0).val / 10000, hN⟩ (0 : Fin 2) * 10000 + 10000; simp only at e4; omega
  | ⟨1, _⟩ => show win0_2.index ⟨(i 0).val / 10000, hN⟩ (1 : Fin 2) * 64 ≤ (i 1).val ∧ (i 1).val < win0_2.index ⟨(i 0).val / 10000, hN⟩ (1 : Fin 2) * 64 + 64; omega

/-- The array the launch leaves: the product of the two arrays it finds. -/
theorem result (c : Dev nD) : (dat0 V c).arrAt 2 cfg0.N = product (V c main_arg0) (V c main_arg2) :=
  (dat0 V c).arrAt_eq_of_cover 2 (product (V c main_arg0) (V c main_arg2)) (fun t _ => flushed_eq V c t) covered

end Cert.KernelIdeal.Dense1

end
-- ==== Proof.Dense2.lean ====
/-
  Layer 2's dense product, read off the third launch. The launch walks ten blocks of 10000 rows; at block `t` the body
  multiplies rows `10000·t … 10000·t + 9999` of the hidden features (narrowed to bf16, which changes nothing over the
  extended reals) into the whole 64 × 32 weight matrix, from a zero accumulator. So entry `(r, q)` of the block is
  `∑ k, h[10000·t + r, k] · w[k, q]`, the blocks tile the 100000 rows, and the array the launch leaves is the plain
  product `h · w`, entry by entry.
-/
import proofs.«160953_j89300960019180_1_alg».proof.Proof.Gen.KernelIdeal.Frame
import Idealize.ShloMosaic.Lib.Pipeline.Value
import Idealize.ShloMosaic.Lib.ValueIdx
import Idealize.ShloMosaic.PureOps.Ideal.Laws

noncomputable section

namespace Cert.KernelIdeal.Dense2

open Cert.KernelIdeal Cert.KernelIdeal.Gen Idealize.ShloMosaic Idealize.ShloMosaic.TcCoe Idealize.SL.Sem
open Idealize.ShloMosaic.Pipeline (Dat)

/-! ## One block: the body's product at an entry -/

/-- Entry `(r, k)` of the block's left operand, for the output entry `j = (r, q)`. -/
abbrev lcoord (j : S10000x32.Idx) (k : Fin 64) : S10000x64.Idx := fun a => match a with
  | ⟨0, _⟩ => ⟨(j 0).val, (j 0).isLt⟩
  | ⟨1, _⟩ => ⟨k.val, k.isLt⟩
/-- Entry `(k, q)` of the right operand. -/
abbrev rcoord (j : S10000x32.Idx) (k : Fin 64) : S64x32.Idx := fun a => match a with
  | ⟨0, _⟩ => ⟨k.val, k.isLt⟩
  | ⟨1, _⟩ => ⟨(j 1).val, (j 1).isLt⟩

theorem lhs0 (j : S10000x32.Idx) (q : dot_S10000x64_S64x32_S10000x32_1_0_0_1_n_n.contr.Idx) :
    (dot_S10000x64_S64x32_S10000x32_1_0_0_1_n_n.lhsIdx j q 0).val = (j 0).val := by
  unfold DotDims.lhsIdx
  rw [dif_neg (show ¬(0 : Fin S10000x64.rank) ∈ dot_S10000x64_S64x32_S10000x32_1_0_0_1_n_n.lhsBatch by decide), dif_pos (show (0 : Fin S10000x64.rank) ∈ dot_S10000x64_S64x32_S10000x32_1_0_0_1_n_n.lhsNonContracting by decide)]
  rfl
theorem lhs1 (j : S10000x32.Idx) (q : dot_S10000x64_S64x32_S10000x32_1_0_0_1_n_n.contr.Idx) :
    (dot_S10000x64_S64x32_S10000x32_1_0_0_1_n_n.lhsIdx j q 1).val = (q ⟨0, by decide⟩).val :=
  dot_S10000x64_S64x32_S10000x32_1_0_0_1_n_n.lhsIdx_val_of_single rfl j q
theorem rhs0 (j : S10000x32.Idx) (q : dot_S10000x64_S64x32_S10000x32_1_0_0_1_n_n.contr.Idx) :
    (dot_S10000x64_S64x32_S10000x32_1_0_0_1_n_n.rhsIdx j q 0).val = (q ⟨0, by decide⟩).val :=
  dot_S10000x64_S64x32_S10000x32_1_0_0_1_n_n.rhsIdx_val_of_single rfl j q
theorem rhs1 (j : S10000x32.Idx) (q : dot_S10000x64_S64x32_S10000x32_1_0_0_1_n_n.contr.Idx) :
    (dot_S10000x64_S64x32_S10000x32_1_0_0_1_n_n.rhsIdx j q 1).val = (j 1).val := by
  unfold DotDims.rhsIdx
  rw [dif_neg (show ¬(1 : Fin S64x32.rank) ∈ dot_S10000x64_S64x32_S10000x32_1_0_0_1_n_n.rhsBatch by decide), dif_pos (show (1 : Fin S64x32.rank) ∈ dot_S10000x64_S64x32_S10000x32_1_0_0_1_n_n.rhsNonContracting by decide)]
  rfl

/-- The body's stored value at entry `j = (r, q)` of the block: `∑ k, x0[r, k] · x1[k, q]` (the narrowing to bf16 is the
    identity on extended reals, the accumulator starts at zero). -/
theorem block_product (x0 : Vec Ideal S10000x64 .f32) (x1 : Vec Ideal S64x32 .f32) (j : S10000x32.Idx) :
    k2_pay1 (F := Ideal) x0 x1 j = ∑ k : Fin 64, x0 (lcoord j k) * x1 (rcoord j k) := by
  unfold k2_pay1
  rw [shapeCast_self]
  simp only [matmul]
  rw [Ideal.matmul_constant_zero_apply, ← Equiv.sum_comp (ValueIdx.contrEquiv1 dot_S10000x64_S64x32_S10000x32_1_0_0_1_n_n 64 rfl rfl).symm]
  refine Finset.sum_congr rfl fun k _ => ?_
  have hk := ValueIdx.contrEquiv1_symm_val dot_S10000x64_S64x32_S10000x32_1_0_0_1_n_n 64 rfl rfl k
  have el : dot_S10000x64_S64x32_S10000x32_1_0_0_1_n_n.lhsIdx j ((ValueIdx.contrEquiv1 dot_S10000x64_S64x32_S10000x32_1_0_0_1_n_n 64 rfl rfl).symm k) = lcoord j k := funext fun a => Fin.ext (by
    match a with
    | ⟨0, _⟩ => exact lhs0 _ _
    | ⟨1, _⟩ => exact (lhs1 _ _).trans hk)
  have er : dot_S10000x64_S64x32_S10000x32_1_0_0_1_n_n.rhsIdx j ((ValueIdx.contrEquiv1 dot_S10000x64_S64x32_S10000x32_1_0_0_1_n_n 64 rfl rfl).symm k) = rcoord j k := funext fun a => Fin.ext (by
    match a with
    | ⟨0, _⟩ => exact (rhs0 _ _).trans hk
    | ⟨1, _⟩ => exact rhs1 _ _)
  rw [el, er]
  rfl

/-! ## The launch: the blocks tile the rows -/

theorem origin : (![0, 0] : Fin 2 → Nat) = fun _ => 0 := funext fun a => by fin_cases a <;> rfl

/-- Block `t` of the hidden features and of the result starts at row `10000·t`; the weight matrix is one block. -/
theorem block_origin : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- Entry `(i₀, k)` of the hidden features and `(k, i₁)` of the weights, for the output entry `i`. -/
abbrev lrow (i : S100000x32.Idx) (k : Fin 64) : S100000x64.Idx := fun a => match a with
  | ⟨0, _⟩ => ⟨(i 0).val, (i 0).isLt⟩
  | ⟨1, _⟩ => ⟨k.val, k.isLt⟩
abbrev rcol (i : S100000x32.Idx) (k : Fin 64) : S64x32.Idx := fun a => match a with
  | ⟨0, _⟩ => ⟨k.val, k.isLt⟩
  | ⟨1, _⟩ => ⟨(i 1).val, (i 1).isLt⟩

/-- The plain product of a 100000 × 64 array with a 64 × 32 one. -/
def product (x : S100000x64.Idx → EReal) (w : S64x32.Idx → EReal) : S100000x32.Idx → EReal :=
  fun i => ∑ k : Fin 64, x (lrow i k) * w (rcol i k)

variable (V : (c : Dev nD) → (b : Ref sig .tc) → Buf (Elt Ideal) ((c : Thread nD τ).loc b))

/-- What block `t` writes back is block `t` of the product of the arrays the launch finds. -/
theorem flushed_eq (c : Dev nD) (t : Fin cfg2.N) :
    (dat2 V c).flushed 2 t = ((cfg2.win 2).blk t).view.read (Elt Ideal) (product (V c main_v45) (V c main_arg4)) := by
  show (cfg2.win 2).cut (grid2.coords t) ((dat2 V c).after 2 t) = _
  rw [after2_2]
  unfold out2_2
  rw [View.canon_unit_zero origin]
  simp only [View.ld_unit_zero (S := S10000x64) origin, View.ld_unit_zero (S := S64x32) origin]
  obtain ⟨e0, e1, e2, e3, e4, e5⟩ := block_origin t
  funext j
  refine (block_product (iblk2 V c 0 t) (iblk2 V c 1 t) j).trans ?_
  show _ = product (V c main_v45) (V c main_arg4) (((cfg2.win 2).blk t).view.emb j)
  unfold product
  refine Finset.sum_congr rfl fun k _ => ?_
  have hl : iblk2 V c 0 t (lcoord j k) = (V c main_v45 : S100000x64.Idx → EReal) (lrow (((cfg2.win 2).blk t).view.emb j) k) := by
    show (V c main_v45 : S100000x64.Idx → EReal) (((cfg2.win 0).blk t).view.emb (lcoord j k)) = _
    refine congrArg (V c main_v45 : S100000x64.Idx → EReal) (funext fun a => Fin.ext ?_)
    match a with
    | ⟨0, _⟩ => show win2_0.index t (0 : Fin 2) * 10000 + 1 * (j 0).val = win2_2.index t (0 : Fin 2) * 10000 + 1 * (j 0).val; omega
    | ⟨1, _⟩ => show win2_0.index t (1 : Fin 2) * 64 + 1 * k.val = k.val; omega
  have hr : iblk2 V c 1 t (rcoord j k) = (V c main_arg4 : S64x32.Idx → EReal) (rcol (((cfg2.win 2).blk t).view.emb j) k) := by
    show (V c main_arg4 : S64x32.Idx → EReal) (((cfg2.win 1).blk t).view.emb (rcoord j k)) = _
    refine congrArg (V c main_arg4 : S64x32.Idx → EReal) (funext fun a => Fin.ext ?_)
    match a with
    | ⟨0, _⟩ => show win2_1.index t (0 : Fin 2) * 64 + 1 * k.val = k.val; omega
    | ⟨1, _⟩ => show win2_1.index t (1 : Fin 2) * 32 + 1 * (j 1).val = win2_2.index t (1 : Fin 2) * 32 + 1 * (j 1).val; omega
  rw [hl, hr]

/-- An entry of the result is in block `t` iff its row is among the block's 10000 rows. -/
theorem mem_block (t : Fin cfg2.N) (i : S100000x32.Idx) :
    i ∈ ((cfg2.win 2).blk t).view.set ↔ ∀ a : Fin 2, win2_2.index t a * S10000x32.size a ≤ (i a).val ∧ (i a).val < win2_2.index t a * S10000x32.size a + S10000x32.size a := by
  show i ∈ ((View.whole main_v46).slice (win2_2.rect t)).set ↔ _
  rw [View.set_slice_whole, Rect.mem_set_unit]
  exact Iff.rfl

/-- Every entry is in the block of its row's quotient by 10000. -/
theorem covered (i : S100000x32.Idx) : ∃ t : Fin cfg2.N, (cfg2.win 2).flush t = true ∧ i ∈ ((cfg2.win 2).blk t).view.set := by
  have hi0 : (i 0).val < 100000 := (i 0).isLt
  have hi1 : (i 1).val < 32 := (i 1).isLt
  have hN : (i 0).val / 10000 < cfg2.N := by show (i 0).val / 10000 < grid2.N; rw [N_2]; omega
  refine ⟨⟨(i 0).val / 10000, hN⟩, flush2_2 _, ?_⟩
  rw [mem_block]
  obtain ⟨e0, e1, e2, e3, e4, e5⟩ := block_origin ⟨(i 0).val / 10000, hN⟩
  intro a
  match a with
  | ⟨0, _⟩ => show win2_2.index ⟨(i 0).val / 10000, hN⟩ (0 : Fin 2) * 10000 ≤ (i 0).val ∧ (i 0).val < win2_2.index ⟨(i 0).val / 10000, hN⟩ (0 : Fin 2) * 10000 + 10000; simp only at e4; omega
  | ⟨1, _⟩ => show win2_2.index ⟨(i 0).val / 10000, hN⟩ (1 : Fin 2) * 32 ≤ (i 1).val ∧ (i 1).val < win2_2.index ⟨(i 0).val / 10000, hN⟩ (1 : Fin 2) * 32 + 32; omega

/-- The array the launch leaves: the product of the two arrays it finds. -/
theorem result (c : Dev nD) : (dat2 V c).arrAt 2 cfg2.N = product (V c main_v45) (V c main_arg4) :=
  (dat2 V c).arrAt_eq_of_cover 2 (product (V c main_v45) (V c main_arg4)) (fun t _ => flushed_eq V c t) covered

end Cert.KernelIdeal.Dense2

end
-- ==== Proof.Bias1.lean ====
/-
  Layer 1's bias and rectifier, read off the second launch. The launch walks ten blocks of 10000 rows of the
  aggregated features; at every block the body adds the bias row (a 1 × 64 array, repeated down the rows) and takes the
  maximum with zero. So entry `(r, q)` of the array the launch leaves is `max (agg[r, q] + b[0, q]) 0`.
-/
import proofs.«160953_j89300960019180_1_alg».proof.Proof.Gen.KernelIdeal.Frame
import Idealize.ShloMosaic.Lib.Pipeline.Value
import Idealize.ShloMosaic.Lib.ValueIdx
import Idealize.ShloMosaic.PureOps.Ideal.Laws

noncomputable section

namespace Cert.KernelIdeal.Bias1

open Cert.KernelIdeal Cert.KernelIdeal.Gen Idealize.ShloMosaic Idealize.ShloMosaic.TcCoe Idealize.SL.Sem
open Idealize.ShloMosaic.Pipeline (Dat)

/-! ## One block -/

/-- The bias entry above column `q` of the block entry `j = (r, q)`. -/
abbrev above (j : S10000x64.Idx) : S1x64.Idx := fun a => match a with
  | ⟨0, _⟩ => ⟨0, Nat.one_pos⟩
  | ⟨1, _⟩ => ⟨(j 1).val, (j 1).isLt⟩

/-- The body's stored value at entry `j = (r, q)`: `max (x[r, q] + b[0, q]) 0`. -/
theorem block_value (b : Vec Ideal S1x64 .f32) (x : Vec Ideal S10000x64 .f32) (j : S10000x64.Idx) :
    k1_pay1 (F := Ideal) b x j = max (x j + b (above j)) (Ideal.ofBits .f32 0x00000000#32) := by
  unfold k1_pay1
  rw [shapeCast_self, shapeCast_self, shapeCast_self]
  show max (x j + broadcastTo S10000x64 b broadcasts_S1x64_S10000x64 j) (Ideal.ofBits .f32 0x00000000#32) = _
  rw [broadcastTo_apply b broadcasts_S1x64_S10000x64 j (above j) (fun a => match a with
    | ⟨0, _⟩ => by show 0 = if (1 : Nat) = 1 then 0 else (j 0).val; rw [if_pos rfl]
    | ⟨1, _⟩ => by show (j 1).val = if (64 : Nat) = 1 then 0 else (j 1).val; rw [if_neg (by decide)])]

/-! ## The launch -/

theorem origin : (![0, 0] : Fin 2 → Nat) = fun _ => 0 := funext fun a => by fin_cases a <;> rfl

/-- Block `t` of the aggregated features and of the result starts at row `10000·t`; the bias row is one block. -/
theorem block_origin : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The bias entry above column `i₁` of the array entry `i`. -/
abbrev top (i : S100000x64.Idx) : S1x64.Idx := fun a => match a with
  | ⟨0, _⟩ => ⟨0, Nat.one_pos⟩
  | ⟨1, _⟩ => ⟨(i 1).val, (i 1).isLt⟩

/-- Rows plus a bias row, rectified. -/
def shifted (agg : S100000x64.Idx → EReal) (b : S1x64.Idx → EReal) : S100000x64.Idx → EReal :=
  fun i => max (agg i + b (top i)) (Ideal.ofBits .f32 0x00000000#32)

variable (V : (c : Dev nD) → (b : Ref sig .tc) → Buf (Elt Ideal) ((c : Thread nD τ).loc b))

/-- What block `t` writes back is block `t` of the shifted, rectified array. -/
theorem flushed_eq (c : Dev nD) (t : Fin cfg1.N) :
    (dat1 V c).flushed 2 t = ((cfg1.win 2).blk t).view.read (Elt Ideal) (shifted (V c main_v43) (V c main_v44)) := by
  show (cfg1.win 2).cut (grid1.coords t) ((dat1 V c).after 2 t) = _
  rw [after1_2]
  unfold out1_2
  rw [View.canon_unit_zero origin]
  simp only [View.ld_unit_zero (S := S10000x64) origin, View.ld_unit_zero (S := S1x64) origin]
  obtain ⟨e0, e1, e2, e3, e4, e5⟩ := block_origin t
  funext j
  refine (block_value (iblk1 V c 1 t) (iblk1 V c 0 t) j).trans ?_
  show _ = shifted (V c main_v43) (V c main_v44) (((cfg1.win 2).blk t).view.emb j)
  unfold shifted
  have hx : iblk1 V c 0 t j = (V c main_v43 : S100000x64.Idx → EReal) (((cfg1.win 2).blk t).view.emb j) := by
    show (V c main_v43 : S100000x64.Idx → EReal) (((cfg1.win 0).blk t).view.emb j) = _
    refine congrArg (V c main_v43 : S100000x64.Idx → EReal) (funext fun a => Fin.ext ?_)
    match a with
    | ⟨0, _⟩ => show win1_0.index t (0 : Fin 2) * 10000 + 1 * (j 0).val = win1_2.index t (0 : Fin 2) * 10000 + 1 * (j 0).val; omega
    | ⟨1, _⟩ => show win1_0.index t (1 : Fin 2) * 64 + 1 * (j 1).val = win1_2.index t (1 : Fin 2) * 64 + 1 * (j 1).val; omega
  have hb : iblk1 V c 1 t (above j) = (V c main_v44 : S1x64.Idx → EReal) (top (((cfg1.win 2).blk t).view.emb j)) := by
    show (V c main_v44 : S1x64.Idx → EReal) (((cfg1.win 1).blk t).view.emb (above j)) = _
    refine congrArg (V c main_v44 : S1x64.Idx → EReal) (funext fun a => Fin.ext ?_)
    match a with
    | ⟨0, _⟩ => show win1_1.index t (0 : Fin 2) * 1 + 1 * 0 = 0; omega
    | ⟨1, _⟩ => show win1_1.index t (1 : Fin 2) * 64 + 1 * (j 1).val = win1_2.index t (1 : Fin 2) * 64 + 1 * (j 1).val; omega
  rw [hx, hb]

/-- An entry of the result is in block `t` iff its row is among the block's 10000 rows. -/
theorem mem_block (t : Fin cfg1.N) (i : S100000x64.Idx) :
    i ∈ ((cfg1.win 2).blk t).view.set ↔ ∀ a : Fin 2, win1_2.index t a * S10000x64.size a ≤ (i a).val ∧ (i a).val < win1_2.index t a * S10000x64.size a + S10000x64.size a := by
  show i ∈ ((View.whole main_v45).slice (win1_2.rect t)).set ↔ _
  rw [View.set_slice_whole, Rect.mem_set_unit]
  exact Iff.rfl

/-- Every entry is in the block of its row's quotient by 10000. -/
theorem covered (i : S100000x64.Idx) : ∃ t : Fin cfg1.N, (cfg1.win 2).flush t = true ∧ i ∈ ((cfg1.win 2).blk t).view.set := by
  have hi0 : (i 0).val < 100000 := (i 0).isLt
  have hi1 : (i 1).val < 64 := (i 1).isLt
  have hN : (i 0).val / 10000 < cfg1.N := by show (i 0).val / 10000 < grid1.N; rw [N_1]; omega
  refine ⟨⟨(i 0).val / 10000, hN⟩, flush1_2 _, ?_⟩
  rw [mem_block]
  obtain ⟨e0, e1, e2, e3, e4, e5⟩ := block_origin ⟨(i 0).val / 10000, hN⟩
  intro a
  match a with
  | ⟨0, _⟩ => show win1_2.index ⟨(i 0).val / 10000, hN⟩ (0 : Fin 2) * 10000 ≤ (i 0).val ∧ (i 0).val < win1_2.index ⟨(i 0).val / 10000, hN⟩ (0 : Fin 2) * 10000 + 10000; simp only at e4; omega
  | ⟨1, _⟩ => show win1_2.index ⟨(i 0).val / 10000, hN⟩ (1 : Fin 2) * 64 ≤ (i 1).val ∧ (i 1).val < win1_2.index ⟨(i 0).val / 10000, hN⟩ (1 : Fin 2) * 64 + 64; omega

/-- The array the launch leaves. -/
theorem result (c : Dev nD) : (dat1 V c).arrAt 2 cfg1.N = shifted (V c main_v43) (V c main_v44) :=
  (dat1 V c).arrAt_eq_of_cover 2 (shifted (V c main_v43) (V c main_v44)) (fun t _ => flushed_eq V c t) covered

end Cert.KernelIdeal.Bias1

end
-- ==== Proof.Bias2.lean ====
/-
  Layer 2's bias, read off the fourth launch. The launch walks ten blocks of 10000 rows of the aggregated features; at
  every block the body adds the bias row (a 1 × 32 array, repeated down the rows). So entry `(r, q)` of the array the
  launch leaves is `agg[r, q] + b[0, q]`.
-/
import proofs.«160953_j89300960019180_1_alg».proof.Proof.Gen.KernelIdeal.Frame
import Idealize.ShloMosaic.Lib.Pipeline.Value
import Idealize.ShloMosaic.Lib.ValueIdx
import Idealize.ShloMosaic.PureOps.Ideal.Laws

noncomputable section

namespace Cert.KernelIdeal.Bias2

open Cert.KernelIdeal Cert.KernelIdeal.Gen Idealize.ShloMosaic Idealize.ShloMosaic.TcCoe Idealize.SL.Sem
open Idealize.ShloMosaic.Pipeline (Dat)

/-! ## One block -/

/-- The bias entry above column `q` of the block entry `j = (r, q)`. -/
abbrev above (j : S10000x32.Idx) : S1x32.Idx := fun a => match a with
  | ⟨0, _⟩ => ⟨0, Nat.one_pos⟩
  | ⟨1, _⟩ => ⟨(j 1).val, (j 1).isLt⟩

/-- The body's stored value at entry `j = (r, q)`: `x[r, q] + b[0, q]`. -/
theorem block_value (b : Vec Ideal S1x32 .f32) (x : Vec Ideal S10000x32 .f32) (j : S10000x32.Idx) :
    k3_pay1 (F := Ideal) b x j = x j + b (above j) := by
  unfold k3_pay1
  rw [shapeCast_self, shapeCast_self, shapeCast_self]
  show x j + broadcastTo S10000x32 b broadcasts_S1x32_S10000x32 j = _
  rw [broadcastTo_apply b broadcasts_S1x32_S10000x32 j (above j) (fun a => match a with
    | ⟨0, _⟩ => by show 0 = if (1 : Nat) = 1 then 0 else (j 0).val; rw [if_pos rfl]
    | ⟨1, _⟩ => by show (j 1).val = if (32 : Nat) = 1 then 0 else (j 1).val; rw [if_neg (by decide)])]

/-! ## The launch -/

theorem origin : (![0, 0] : Fin 2 → Nat) = fun _ => 0 := funext fun a => by fin_cases a <;> rfl

/-- Block `t` of the aggregated features and of the result starts at row `10000·t`; the bias row is one block. -/
theorem block_origin : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- The bias entry above column `i₁` of the array entry `i`. -/
abbrev top (i : S100000x32.Idx) : S1x32.Idx := fun a => match a with
  | ⟨0, _⟩ => ⟨0, Nat.one_pos⟩
  | ⟨1, _⟩ => ⟨(i 1).val, (i 1).isLt⟩

/-- Rows plus a bias row. -/
def shifted (agg : S100000x32.Idx → EReal) (b : S1x32.Idx → EReal) : S100000x32.Idx → EReal :=
  fun i => agg i + b (top i)

variable (V : (c : Dev nD) → (b : Ref sig .tc) → Buf (Elt Ideal) ((c : Thread nD τ).loc b))

/-- What block `t` writes back is block `t` of the shifted array. -/
theorem flushed_eq (c : Dev nD) (t : Fin cfg3.N) :
    (dat3 V c).flushed 2 t = ((cfg3.win 2).blk t).view.read (Elt Ideal) (shifted (V c main_v59) (V c main_v60)) := by
  show (cfg3.win 2).cut (grid3.coords t) ((dat3 V c).after 2 t) = _
  rw [after3_2]
  unfold out3_2
  rw [View.canon_unit_zero origin]
  simp only [View.ld_unit_zero (S := S10000x32) origin, View.ld_unit_zero (S := S1x32) origin]
  obtain ⟨e0, e1, e2, e3, e4, e5⟩ := block_origin t
  funext j
  refine (block_value (iblk3 V c 1 t) (iblk3 V c 0 t) j).trans ?_
  show _ = shifted (V c main_v59) (V c main_v60) (((cfg3.win 2).blk t).view.emb j)
  unfold shifted
  have hx : iblk3 V c 0 t j = (V c main_v59 : S100000x32.Idx → EReal) (((cfg3.win 2).blk t).view.emb j) := by
    show (V c main_v59 : S100000x32.Idx → EReal) (((cfg3.win 0).blk t).view.emb j) = _
    refine congrArg (V c main_v59 : S100000x32.Idx → EReal) (funext fun a => Fin.ext ?_)
    match a with
    | ⟨0, _⟩ => show win3_0.index t (0 : Fin 2) * 10000 + 1 * (j 0).val = win3_2.index t (0 : Fin 2) * 10000 + 1 * (j 0).val; omega
    | ⟨1, _⟩ => show win3_0.index t (1 : Fin 2) * 32 + 1 * (j 1).val = win3_2.index t (1 : Fin 2) * 32 + 1 * (j 1).val; omega
  have hb : iblk3 V c 1 t (above j) = (V c main_v60 : S1x32.Idx → EReal) (top (((cfg3.win 2).blk t).view.emb j)) := by
    show (V c main_v60 : S1x32.Idx → EReal) (((cfg3.win 1).blk t).view.emb (above j)) = _
    refine congrArg (V c main_v60 : S1x32.Idx → EReal) (funext fun a => Fin.ext ?_)
    match a with
    | ⟨0, _⟩ => show win3_1.index t (0 : Fin 2) * 1 + 1 * 0 = 0; omega
    | ⟨1, _⟩ => show win3_1.index t (1 : Fin 2) * 32 + 1 * (j 1).val = win3_2.index t (1 : Fin 2) * 32 + 1 * (j 1).val; omega
  rw [hx, hb]

/-- An entry of the result is in block `t` iff its row is among the block's 10000 rows. -/
theorem mem_block (t : Fin cfg3.N) (i : S100000x32.Idx) :
    i ∈ ((cfg3.win 2).blk t).view.set ↔ ∀ a : Fin 2, win3_2.index t a * S10000x32.size a ≤ (i a).val ∧ (i a).val < win3_2.index t a * S10000x32.size a + S10000x32.size a := by
  show i ∈ ((View.whole main_v61).slice (win3_2.rect t)).set ↔ _
  rw [View.set_slice_whole, Rect.mem_set_unit]
  exact Iff.rfl

/-- Every entry is in the block of its row's quotient by 10000. -/
theorem covered (i : S100000x32.Idx) : ∃ t : Fin cfg3.N, (cfg3.win 2).flush t = true ∧ i ∈ ((cfg3.win 2).blk t).view.set := by
  have hi0 : (i 0).val < 100000 := (i 0).isLt
  have hi1 : (i 1).val < 32 := (i 1).isLt
  have hN : (i 0).val / 10000 < cfg3.N := by show (i 0).val / 10000 < grid3.N; rw [N_3]; omega
  refine ⟨⟨(i 0).val / 10000, hN⟩, flush3_2 _, ?_⟩
  rw [mem_block]
  obtain ⟨e0, e1, e2, e3, e4, e5⟩ := block_origin ⟨(i 0).val / 10000, hN⟩
  intro a
  match a with
  | ⟨0, _⟩ => show win3_2.index ⟨(i 0).val / 10000, hN⟩ (0 : Fin 2) * 10000 ≤ (i 0).val ∧ (i 0).val < win3_2.index ⟨(i 0).val / 10000, hN⟩ (0 : Fin 2) * 10000 + 10000; simp only at e4; omega
  | ⟨1, _⟩ => show win3_2.index ⟨(i 0).val / 10000, hN⟩ (1 : Fin 2) * 32 ≤ (i 1).val ∧ (i 1).val < win3_2.index ⟨(i 0).val / 10000, hN⟩ (1 : Fin 2) * 32 + 32; omega

/-- The array the launch leaves. -/
theorem result (c : Dev nD) : (dat3 V c).arrAt 2 cfg3.N = shifted (V c main_v59) (V c main_v60) :=
  (dat3 V c).arrAt_eq_of_cover 2 (shifted (V c main_v59) (V c main_v60)) (fun t _ => flushed_eq V c t) covered

end Cert.KernelIdeal.Bias2

end
-- ==== Proof.Stages.lean ====
/-
  The reference's stages, entry by entry, are the functions the four launches compute.
  * Its first `dot_general` at entry `(n, q)` is `∑ k, x[n, k] · w[k, q]` over the 128 feature columns: the first launch's product.
  * Its bias add and rectifier at `(n, q)` are `max (agg[n, q] + b[q]) 0`; the kernel program reshapes the bias to one row
    `[1, 64]` before the launch, and entry `(0, q)` of that row is `b[q]`: the second launch's shifted, rectified rows.
  * Its second `dot_general` is the third launch's product over the 64 hidden columns, and its last add the fourth launch's shifted rows.
  No law of arithmetic is used beyond reading both sides at an entry: the sums run over the same index in the same order.
-/
import proofs.«160953_j89300960019180_1_alg».proof.Proof.Dense1
import proofs.«160953_j89300960019180_1_alg».proof.Proof.Dense2
import proofs.«160953_j89300960019180_1_alg».proof.Proof.Bias1
import proofs.«160953_j89300960019180_1_alg».proof.Proof.Bias2
import proofs.«160953_j89300960019180_1_alg».proof.Proof.RefReadPatched

noncomputable section

namespace Cert.KernelIdeal.Stages

open Cert.KernelIdeal Cert.KernelIdeal.Gen Idealize.ShloMosaic Idealize.ShloMosaic.TcCoe
open Cert.ReferenceIdeal.ReadP

variable (x0 : S100000x128.Idx → EReal) (x1 : S2x1280000.Idx → BitVec 32) (x2 : S128x64.Idx → EReal)
  (x3 : S64.Idx → EReal) (x4 : S64x32.Idx → EReal) (x5 : S32.Idx → EReal)

/-- The first launch's product is the reference's first `dot_general`. -/
theorem product1 (x : S100000x128.Idx → EReal) (w : S128x64.Idx → EReal) :
    Dense1.product x w = val_main_v30 (F := Ideal) x w :=
  funext fun i => (val_main_v30_apply x w i).symm

/-- The third launch's product is the reference's second `dot_general`, of the reference's hidden features. -/
theorem product2 :
    Dense2.product (val_main_v47 (F := Ideal) x0 x1 x2 x3) x4 = val_main_v48 (F := Ideal) x0 x1 x2 x3 x4 :=
  funext fun i => (val_main_v48_apply x0 x1 x2 x3 x4 i).symm

/-- Entry `(0, q)` of a 64-vector reshaped to one row is its entry `q`. -/
theorem row64 (b : S64.Idx → EReal) (i : S100000x64.Idx) :
    shapeCast S1x64 b shapeCasts_S64_S1x64 (Bias1.top i) = b (idx_main_v44 (idx_main_v45 i)) :=
  shapeCast_apply b shapeCasts_S64_S1x64 (Bias1.top i) (idx_main_v44 (idx_main_v45 i)) (by
    rw [Shape.rowMajor_val_two, Shape.rowMajor_val_one]; show (i 1).val = 0 * 64 + (i 1).val; omega)

/-- Entry `(0, q)` of a 32-vector reshaped to one row is its entry `q`. -/
theorem row32 (b : S32.Idx → EReal) (i : S100000x32.Idx) :
    shapeCast S1x32 b shapeCasts_S32_S1x32 (Bias2.top i) = b (idx_main_v62 (idx_main_v63 i)) :=
  shapeCast_apply b shapeCasts_S32_S1x32 (Bias2.top i) (idx_main_v62 (idx_main_v63 i)) (by
    rw [Shape.rowMajor_val_two, Shape.rowMajor_val_one]; show (i 1).val = 0 * 32 + (i 1).val; omega)

/-- The second launch's shifted, rectified rows are the reference's hidden features. -/
theorem shifted1 :
    Bias1.shifted (val_main_v43 (F := Ideal) x0 x1 x2) (shapeCast S1x64 x3 shapeCasts_S64_S1x64)
      = val_main_v47 (F := Ideal) x0 x1 x2 x3 := by
  funext i
  unfold Bias1.shifted
  rw [val_main_v47_apply, val_main_v46_apply, val_main_v45_apply, val_main_v44_apply, val_main_call1_v0_apply,
    val_main_call1_cst_apply, row64]
  rfl

/-- The fourth launch's shifted rows are the reference's result. -/
theorem shifted2 :
    Bias2.shifted (val_main_v61 (F := Ideal) x0 x1 x2 x3 x4) (shapeCast S1x32 x5 shapeCasts_S32_S1x32)
      = val_main_v64 (F := Ideal) x0 x1 x2 x3 x4 x5 := by
  funext i
  unfold Bias2.shifted
  rw [val_main_v64_apply, val_main_v63_apply, val_main_v62_apply, row32]
  rfl

end Cert.KernelIdeal.Stages

end
-- ==== Proof.Walk2.lean ====
/-
  The rest of the idealized kernel program, boundary by boundary, against the reference's stages.
  Between launches the host applies to the last launch's array exactly the reference's operations — gather the rows at the
  edges' sources, scale each by its edge's weight, add them up at the edges' targets — so the aggregated array is the
  reference's stage of the same name as soon as the array going in is the reference's. The launches were read in their
  own modules: a dense product, the bias add and rectifier, the second dense product, the last bias add; each is the
  reference's stage entry by entry. A buffer nobody writes keeps its contents across a stretch or a launch, which is how
  the edge endpoints, the edge weights and the later arguments reach the operations that read them.
-/
import proofs.«160953_j89300960019180_1_alg».proof.Proof.Walk1
import proofs.«160953_j89300960019180_1_alg».proof.Proof.Stages

noncomputable section

namespace Cert.KernelIdeal.Walk

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## After the first launch -/

/-- The first launch leaves the reference's first product. -/
theorem hidden4 : W4 m ρ c (Proc.devRef .tc main_v30) = Cert.ReferenceIdeal.ReadP.val_main_v30 (F := Ideal) (m ((c : Thread nD τ).loc main_arg0)) (m ((c : Thread nD τ).loc main_arg2)) := by
  refine (W4_arr m ρ c 2).trans ?_
  refine (Dense1.result (V3 m ρ) c).trans ?_
  show Dense1.product (W3 m ρ c (Proc.devRef .tc main_arg0)) (W3 m ρ c (Proc.devRef .tc main_arg2)) = _
  rw [arg0_3, arg2_3]
  exact Stages.product1 _ _

theorem src4 : W4 m ρ c (Proc.devRef .tc main_v3) = Cert.ReferenceIdeal.ReadP.val_main_v3 (F := Ideal) (m ((c : Thread nD τ).loc main_arg1)) :=
  (W4_of_ne m ρ c main_v3 (by decide)).trans (src3 m ρ c)
theorem dst4 : W4 m ρ c (Proc.devRef .tc main_v6) = Cert.ReferenceIdeal.ReadP.val_main_v6 (F := Ideal) (m ((c : Thread nD τ).loc main_arg1)) :=
  (W4_of_ne m ρ c main_v6 (by decide)).trans (dst3 m ρ c)
theorem norm4 : W4 m ρ c (Proc.devRef .tc main_v29) = Cert.ReferenceIdeal.ReadP.val_main_v29 (F := Ideal) (m ((c : Thread nD τ).loc main_arg1)) :=
  (W4_of_ne m ρ c main_v29 (by decide)).trans (norm3 m ρ c)
theorem arg3_4 : W4 m ρ c (Proc.devRef .tc main_arg3) = m ((c : Thread nD τ).loc main_arg3) :=
  (W4_of_ne m ρ c main_arg3 (by decide)).trans (arg3_3 m ρ c)
theorem arg4_4 : W4 m ρ c (Proc.devRef .tc main_arg4) = m ((c : Thread nD τ).loc main_arg4) :=
  (W4_of_ne m ρ c main_arg4 (by decide)).trans (arg4_3 m ρ c)
theorem arg5_4 : W4 m ρ c (Proc.devRef .tc main_arg5) = m ((c : Thread nD τ).loc main_arg5) :=
  (W4_of_ne m ρ c main_arg5 (by decide)).trans (arg5_3 m ρ c)

/-! ## Up to the second launch: the first aggregation -/

set_option maxHeartbeats 2000000 in
/-- Layer 1's aggregated features. -/
theorem agg5 : W5 m ρ c (Proc.devRef .tc main_v43) = Cert.ReferenceIdeal.ReadP.val_main_v43 (F := Ideal) (m ((c : Thread nD τ).loc main_arg0)) (m ((c : Thread nD τ).loc main_arg1)) (m ((c : Thread nD τ).loc main_arg2)) := by
  show StableHlo.after hostOps1 (W4 m ρ c) (Proc.devRef .tc main_v43) = _
  have h30 := hidden4 m ρ c
  have h3 := src4 m ρ c
  have h6 := dst4 m ρ c
  have h29 := norm4 m ρ c
  generalize W4 m ρ c = G at h30 h3 h6 h29 ⊢
  after_results
  rw [h30, h3, h6, h29]
  unfold Cert.ReferenceIdeal.ReadP.val_main_v43 Cert.ReferenceIdeal.ReadP.val_main_v41 Cert.ReferenceIdeal.ReadP.val_main_cst_8 Cert.ReferenceIdeal.ReadP.val_main_v42 Cert.ReferenceIdeal.ReadP.val_main_v40 Cert.ReferenceIdeal.ReadP.val_main_v37 Cert.ReferenceIdeal.ReadP.val_main_v36 Cert.ReferenceIdeal.ReadP.val_main_v35 Cert.ReferenceIdeal.ReadP.val_main_v32 Cert.ReferenceIdeal.ReadP.val_main_v34 Cert.ReferenceIdeal.ReadP.val_main_v31 Cert.ReferenceIdeal.ReadP.val_main_v33 Cert.ReferenceIdeal.ReadP.val_main_c_6 Cert.ReferenceIdeal.ReadP.val_main_c_7 Cert.ReferenceIdeal.ReadP.val_main_v39 Cert.ReferenceIdeal.ReadP.val_main_v38
  generalize Cert.ReferenceIdeal.ReadP.val_main_v30 (F := Ideal) (m ((c : Thread nD τ).loc main_arg0)) (m ((c : Thread nD τ).loc main_arg2)) = H
  generalize Cert.ReferenceIdeal.ReadP.val_main_v3 (F := Ideal) (m ((c : Thread nD τ).loc main_arg1)) = S
  generalize Cert.ReferenceIdeal.ReadP.val_main_v6 (F := Ideal) (m ((c : Thread nD τ).loc main_arg1)) = T
  generalize Cert.ReferenceIdeal.ReadP.val_main_v29 (F := Ideal) (m ((c : Thread nD τ).loc main_arg1)) = N
  exact rfl

/-- Layer 1's bias as one row. -/
theorem biasrow5 : W5 m ρ c (Proc.devRef .tc main_v44) = shapeCast S1x64 (m ((c : Thread nD τ).loc main_arg3)) shapeCasts_S64_S1x64 := by
  show StableHlo.after hostOps1 (W4 m ρ c) (Proc.devRef .tc main_v44) = _
  have h := arg3_4 m ρ c
  generalize W4 m ρ c = G at h ⊢
  after_results
  rw [h]
  exact rfl

theorem src5 : W5 m ρ c (Proc.devRef .tc main_v3) = Cert.ReferenceIdeal.ReadP.val_main_v3 (F := Ideal) (m ((c : Thread nD τ).loc main_arg1)) := by
  show StableHlo.after hostOps1 (W4 m ρ c) (Proc.devRef .tc main_v3) = _
  have h := src4 m ρ c
  generalize W4 m ρ c = G at h ⊢
  after_results
  exact h
theorem dst5 : W5 m ρ c (Proc.devRef .tc main_v6) = Cert.ReferenceIdeal.ReadP.val_main_v6 (F := Ideal) (m ((c : Thread nD τ).loc main_arg1)) := by
  show StableHlo.after hostOps1 (W4 m ρ c) (Proc.devRef .tc main_v6) = _
  have h := dst4 m ρ c
  generalize W4 m ρ c = G at h ⊢
  after_results
  exact h
theorem norm5 : W5 m ρ c (Proc.devRef .tc main_v29) = Cert.ReferenceIdeal.ReadP.val_main_v29 (F := Ideal) (m ((c : Thread nD τ).loc main_arg1)) := by
  show StableHlo.after hostOps1 (W4 m ρ c) (Proc.devRef .tc main_v29) = _
  have h := norm4 m ρ c
  generalize W4 m ρ c = G at h ⊢
  after_results
  exact h
theorem arg4_5 : W5 m ρ c (Proc.devRef .tc main_arg4) = m ((c : Thread nD τ).loc main_arg4) := by
  show StableHlo.after hostOps1 (W4 m ρ c) (Proc.devRef .tc main_arg4) = _
  have h := arg4_4 m ρ c
  generalize W4 m ρ c = G at h ⊢
  after_results
  exact h
theorem arg5_5 : W5 m ρ c (Proc.devRef .tc main_arg5) = m ((c : Thread nD τ).loc main_arg5) := by
  show StableHlo.after hostOps1 (W4 m ρ c) (Proc.devRef .tc main_arg5) = _
  have h := arg5_4 m ρ c
  generalize W4 m ρ c = G at h ⊢
  after_results
  exact h

/-! ## After the second launch, and the third -/

/-- The second launch leaves the reference's hidden features. -/
theorem hidden6 : W6 m ρ c (Proc.devRef .tc main_v45) = Cert.ReferenceIdeal.ReadP.val_main_v47 (F := Ideal) (m ((c : Thread nD τ).loc main_arg0)) (m ((c : Thread nD τ).loc main_arg1)) (m ((c : Thread nD τ).loc main_arg2)) (m ((c : Thread nD τ).loc main_arg3)) := by
  refine (W6_arr m ρ c 2).trans ?_
  refine (Bias1.result (V5 m ρ) c).trans ?_
  show Bias1.shifted (W5 m ρ c (Proc.devRef .tc main_v43)) (W5 m ρ c (Proc.devRef .tc main_v44)) = _
  rw [agg5, biasrow5]
  exact Stages.shifted1 _ _ _ _

theorem src6 : W6 m ρ c (Proc.devRef .tc main_v3) = Cert.ReferenceIdeal.ReadP.val_main_v3 (F := Ideal) (m ((c : Thread nD τ).loc main_arg1)) :=
  (W6_of_ne m ρ c main_v3 (by decide)).trans (src5 m ρ c)
theorem dst6 : W6 m ρ c (Proc.devRef .tc main_v6) = Cert.ReferenceIdeal.ReadP.val_main_v6 (F := Ideal) (m ((c : Thread nD τ).loc main_arg1)) :=
  (W6_of_ne m ρ c main_v6 (by decide)).trans (dst5 m ρ c)
theorem norm6 : W6 m ρ c (Proc.devRef .tc main_v29) = Cert.ReferenceIdeal.ReadP.val_main_v29 (F := Ideal) (m ((c : Thread nD τ).loc main_arg1)) :=
  (W6_of_ne m ρ c main_v29 (by decide)).trans (norm5 m ρ c)
theorem arg4_6 : W6 m ρ c (Proc.devRef .tc main_arg4) = m ((c : Thread nD τ).loc main_arg4) :=
  (W6_of_ne m ρ c main_arg4 (by decide)).trans (arg4_5 m ρ c)
theorem arg5_6 : W6 m ρ c (Proc.devRef .tc main_arg5) = m ((c : Thread nD τ).loc main_arg5) :=
  (W6_of_ne m ρ c main_arg5 (by decide)).trans (arg5_5 m ρ c)

/-- The third launch leaves the reference's second product. -/
theorem out7 : W7 m ρ c (Proc.devRef .tc main_v46) = Cert.ReferenceIdeal.ReadP.val_main_v48 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (W7_arr m ρ c 2).trans ?_
  refine (Dense2.result (V6 m ρ) c).trans ?_
  show Dense2.product (W6 m ρ c (Proc.devRef .tc main_v45)) (W6 m ρ c (Proc.devRef .tc main_arg4)) = _
  rw [hidden6, arg4_6]
  exact Stages.product2 _ _ _ _ _

theorem src7 : W7 m ρ c (Proc.devRef .tc main_v3) = Cert.ReferenceIdeal.ReadP.val_main_v3 (F := Ideal) (m ((c : Thread nD τ).loc main_arg1)) :=
  (W7_of_ne m ρ c main_v3 (by decide)).trans (src6 m ρ c)
theorem dst7 : W7 m ρ c (Proc.devRef .tc main_v6) = Cert.ReferenceIdeal.ReadP.val_main_v6 (F := Ideal) (m ((c : Thread nD τ).loc main_arg1)) :=
  (W7_of_ne m ρ c main_v6 (by decide)).trans (dst6 m ρ c)
theorem norm7 : W7 m ρ c (Proc.devRef .tc main_v29) = Cert.ReferenceIdeal.ReadP.val_main_v29 (F := Ideal) (m ((c : Thread nD τ).loc main_arg1)) :=
  (W7_of_ne m ρ c main_v29 (by decide)).trans (norm6 m ρ c)
theorem arg5_7 : W7 m ρ c (Proc.devRef .tc main_arg5) = m ((c : Thread nD τ).loc main_arg5) :=
  (W7_of_ne m ρ c main_arg5 (by decide)).trans (arg5_6 m ρ c)

/-! ## Up to the last launch: the second aggregation -/

set_option maxHeartbeats 2000000 in
/-- Layer 2's aggregated features. -/
theorem agg8 : W8 m ρ c (Proc.devRef .tc main_v59) = Cert.ReferenceIdeal.ReadP.val_main_v61 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  show StableHlo.after hostOps3 (W7 m ρ c) (Proc.devRef .tc main_v59) = _
  have h46 := out7 m ρ c
  have h3 := src7 m ρ c
  have h6 := dst7 m ρ c
  have h29 := norm7 m ρ c
  generalize W7 m ρ c = G at h46 h3 h6 h29 ⊢
  after_results
  rw [h46, h3, h6, h29]
  unfold Cert.ReferenceIdeal.ReadP.val_main_v61 Cert.ReferenceIdeal.ReadP.val_main_v59 Cert.ReferenceIdeal.ReadP.val_main_cst_11 Cert.ReferenceIdeal.ReadP.val_main_v60 Cert.ReferenceIdeal.ReadP.val_main_v58 Cert.ReferenceIdeal.ReadP.val_main_v55 Cert.ReferenceIdeal.ReadP.val_main_v54 Cert.ReferenceIdeal.ReadP.val_main_v53 Cert.ReferenceIdeal.ReadP.val_main_v50 Cert.ReferenceIdeal.ReadP.val_main_v52 Cert.ReferenceIdeal.ReadP.val_main_v49 Cert.ReferenceIdeal.ReadP.val_main_v51 Cert.ReferenceIdeal.ReadP.val_main_c_9 Cert.ReferenceIdeal.ReadP.val_main_c_10 Cert.ReferenceIdeal.ReadP.val_main_v57 Cert.ReferenceIdeal.ReadP.val_main_v56
  generalize Cert.ReferenceIdeal.ReadP.val_main_v48 (F := Ideal) (m ((c : Thread nD τ).loc main_arg0)) (m ((c : Thread nD τ).loc main_arg1)) (m ((c : Thread nD τ).loc main_arg2)) (m ((c : Thread nD τ).loc main_arg3)) (m ((c : Thread nD τ).loc main_arg4)) = H
  generalize Cert.ReferenceIdeal.ReadP.val_main_v3 (F := Ideal) (m ((c : Thread nD τ).loc main_arg1)) = S
  generalize Cert.ReferenceIdeal.ReadP.val_main_v6 (F := Ideal) (m ((c : Thread nD τ).loc main_arg1)) = T
  generalize Cert.ReferenceIdeal.ReadP.val_main_v29 (F := Ideal) (m ((c : Thread nD τ).loc main_arg1)) = N
  exact rfl

/-- Layer 2's bias as one row. -/
theorem biasrow8 : W8 m ρ c (Proc.devRef .tc main_v60) = shapeCast S1x32 (m ((c : Thread nD τ).loc main_arg5)) shapeCasts_S32_S1x32 := by
  show StableHlo.after hostOps3 (W7 m ρ c) (Proc.devRef .tc main_v60) = _
  have h := arg5_7 m ρ c
  generalize W7 m ρ c = G at h ⊢
  after_results
  rw [h]
  exact rfl

/-! ## The result -/

/-- The last launch leaves the reference's result. -/
theorem result9 : W9 m ρ c (Proc.devRef .tc main_v61) = Cert.ReferenceIdeal.ReadP.val_main_v64 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W9_arr m ρ c 2).trans ?_
  refine (Bias2.result (V8 m ρ) c).trans ?_
  show Bias2.shifted (W8 m ρ c (Proc.devRef .tc main_v59)) (W8 m ρ c (Proc.devRef .tc main_v60)) = _
  rw [agg8, biasrow8]
  exact Stages.shifted2 _ _ _ _ _ _

end Cert.KernelIdeal.Walk

end
-- ==== Proof.lean ====
/-
  A two-layer graph convolution against its jnp reference, over the extended reals.
  Both programs build, from the edge list alone, the edges' endpoints with a self-loop per node, the nodes' degrees, and
  every edge's weight `deg[src]^(-1/2) · deg[dst]^(-1/2)`; then, per layer: a dense product of the node features with a
  weight matrix, the rows gathered at the edges' sources and scaled by the edge weights, added up at the edges' targets,
  plus a bias row (and, in the first layer, the maximum with zero). The reference does all of it on the host. The kernel
  program does the gathers and the scatter-adds on the host with the very same operations, and the two dense products and the
  two bias steps in four launches, each walking ten blocks of 10000 rows. Over the extended reals a block of a product is
  the block of the product (the bf16 narrowing is the identity, the accumulator starts at zero, and the sum over the
  contracted index is the same finite sum in both programs), and a bias row `[1, d]` repeated down the rows is the bias
  vector broadcast along the rows. So the two results are one function of the arguments, entry by entry; no law of
  arithmetic beyond that reading is needed, and the precondition (finite inputs) is not used.
  The three frames: the two kernel programs' are the segment-by-segment launches; the reference's is its run with the
  result dropped. The ideal pass rewrote nothing, so `preserves` holds trivially.
-/
import proofs.«160953_j89300960019180_1_alg».proof.Defs
import proofs.«160953_j89300960019180_1_alg».proof.Proof.Gen.Kernel
import proofs.«160953_j89300960019180_1_alg».proof.Proof.Gen.Kernel.Skeleton
import proofs.«160953_j89300960019180_1_alg».proof.Proof.Gen.Kernel.Launch
import proofs.«160953_j89300960019180_1_alg».proof.Proof.Gen.Kernel.Points
import proofs.«160953_j89300960019180_1_alg».proof.Proof.Gen.Kernel.Frame
import proofs.«160953_j89300960019180_1_alg».proof.Proof.Gen.KernelIdeal
import proofs.«160953_j89300960019180_1_alg».proof.Proof.Gen.KernelIdeal.Skeleton
import proofs.«160953_j89300960019180_1_alg».proof.Proof.Gen.KernelIdeal.Launch
import proofs.«160953_j89300960019180_1_alg».proof.Proof.Gen.KernelIdeal.Points
import proofs.«160953_j89300960019180_1_alg».proof.Proof.Gen.KernelIdeal.Frame
import proofs.«160953_j89300960019180_1_alg».proof.Proof.Gen.ReferenceIdeal
import proofs.«160953_j89300960019180_1_alg».proof.Proof.Gen.Pre_finite_inputs
import proofs.«160953_j89300960019180_1_alg».proof.Proof.KernelRun
import proofs.«160953_j89300960019180_1_alg».proof.Proof.Walk2
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference's run, its result dropped. -/
theorem frame_reference_ideal : Cert.frame_ReferenceIdeal := fun m ρ _ =>
  (θ_run Cert.ReferenceIdeal.defs _ _).mono (fun _ h c => (h c).2) (Cert.ReferenceIdeal.ValueP.run (F := Ideal) m ρ)

/-- Both programs end with the reference's last stage of the (agreeing) arguments in the result buffer. -/
theorem algebraic : Cert.algebraic_KernelIdeal_ReferenceIdeal := by
  intro m ρ m' ρ' _ hagree
  refine ⟨fun c => Cert.ReferenceIdeal.ReadP.val_main_v64 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono (fun r h c => ⟨(h c).1.trans (Cert.KernelIdeal.Walk.result9 m ρ c), (h c).2⟩)
      (Cert.KernelIdeal.Whole.run (F := Ideal) m ρ)
  · refine (θ_run Cert.ReferenceIdeal.defs _ _).mono (fun _ h c => ⟨(h c).1.trans ?_, (h c).2⟩)
      (Cert.ReferenceIdeal.ValueP.run (F := Ideal) m' ρ')
    rw [Cert.ReferenceIdeal.ReadP.val_main_v64_eq, (hagree c).1, (hagree c).2.1, (hagree c).2.2.1, (hagree c).2.2.2.1,
      (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, trivial, algebraic⟩

end Cert.Proof

end
